-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S1x2048 : Shape := ⟨2, ![1, 2048]⟩
abbrev S4x2048 : Shape := ⟨2, ![4, 2048]⟩
abbrev S512x4096 : Shape := ⟨2, ![512, 4096]⟩
abbrev S4096x256 : Shape := ⟨2, ![4096, 256]⟩
abbrev S4x256 : Shape := ⟨2, ![4, 256]⟩
abbrev S512x256 : Shape := ⟨2, ![512, 256]⟩
abbrev S1x256 : Shape := ⟨2, ![1, 256]⟩

abbrev nBuf : Space → Nat
  | .hbm => 28
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S4096x4096, .bf16⟩
  | .hbm, ⟨13, _⟩ => ⟨S2048x4096, .bf16⟩
  | .hbm, ⟨14, _⟩ => ⟨S4096x2048, .bf16⟩
  | .hbm, ⟨15, _⟩ => ⟨S2048x4096, .bf16⟩
  | .hbm, ⟨16, _⟩ => ⟨S4096x2048, .bf16⟩
  | .hbm, ⟨17, _⟩ => ⟨S2048x4096, .bf16⟩
  | .hbm, ⟨18, _⟩ => ⟨S4096x2048, .bf16⟩
  | .hbm, ⟨19, _⟩ => ⟨S2048x4096, .bf16⟩
  | .hbm, ⟨20, _⟩ => ⟨S4096x2048, .bf16⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S4x2048, .f32⟩
  | .hbm, ⟨26, _⟩ => ⟨S4096x2048, .f32⟩
  | .hbm, ⟨27, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4x256, .f32⟩
  | .local _ .vmem, ⟨11, _⟩ => ⟨S4x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  concatenates_S4096x2048_S4096x2048_S4096x4096_d1 : Shape.Concatenates [S4096x2048, S4096x2048] S4096x4096 1
  bitsLt_bf16_f32 : FTy.bits .bf16 < FTy.bits .f32
  transposes_S2048x4096_S4096x2048_1_0 : S2048x4096.Transposes [1, 0] S4096x2048
  bcast_S2048_S1x2048_1 : S2048.BroadcastsInDim S1x2048 (![1] : Fin 1 → Fin S1x2048.rank)
  concatenates_S1x2048_S1x2048_S1x2048_S1x2048_S4x2048_d0 : Shape.Concatenates [S1x2048, S1x2048, S1x2048, S1x2048] S4x2048 0
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4x256_S1x256_0_0 : ∀ a, (![0, 0] : Fin 2 → Nat) a + S1x256.size a ≤ S4x256.size a
  h_S1x256 : 0 < S1x256.numel
  shapeCasts_S1x256_S1x256 : S1x256.ShapeCasts S1x256
  broadcasts_S1x256_S512x256 : S1x256.Broadcasts S512x256
  inb_S4x256_S1x256_1_0 : ∀ a, (![1, 0] : Fin 2 → Nat) a + S1x256.size a ≤ S4x256.size a
  inb_S4x256_S1x256_2_0 : ∀ a, (![2, 0] : Fin 2 → Nat) a + S1x256.size a ≤ S4x256.size a
  inb_S4x256_S1x256_3_0 : ∀ a, (![3, 0] : Fin 2 → Nat) a + S1x256.size a ≤ S4x256.size a
  inb_S512x256_S512x256_0_0 : ∀ a, (![0, 0] : Fin 2 → Nat) a + S512x256.size a ≤ S512x256.size a
  h_S512x256 : 0 < S512x256.numel
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x2048.size a
  hwx0_1 : ∀ i : grid0.Coords, EltTy.bits .bf16 = 32 ∨ (Rect.block (s := S4096x2048) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x2048.size a
  hwx0_2 : ∀ i : grid0.Coords, EltTy.bits .bf16 = 32 ∨ (Rect.block (s := S4096x2048) S4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x2048.size a
  hwx0_3 : ∀ i : grid0.Coords, EltTy.bits .bf16 = 32 ∨ (Rect.block (s := S4096x2048) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x2048.size a
  hwx0_4 : ∀ i : grid0.Coords, EltTy.bits .bf16 = 32 ∨ (Rect.block (s := S4096x2048) S4096x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x2048.size a
  hwx0_5 : ∀ i : grid0.Coords, EltTy.bits .f32 = 32 ∨ (Rect.block (s := S4x2048) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S4096x2048.size a
  hwx0_6 : ∀ i : grid0.Coords, EltTy.bits .f32 = 32 ∨ (Rect.block (s := S4096x2048) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x2048.size a
  hwx0_7 : ∀ i : grid0.Coords, EltTy.bits .f32 = 32 ∨ (Rect.block (s := S4096x2048) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S4096x2048.size a
  hwx0_8 : ∀ i : grid0.Coords, EltTy.bits .f32 = 32 ∨ (Rect.block (s := S4096x2048) S512x256.size (cc0_transform_8 i) (hinb0_8 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S4096x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S512x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_0) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v15_1) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.KernelBlocks.lean ====
/-
  What one grid point's body computes, as functions of the blocks it is handed.

  The body reads seven staged blocks — a [512, 4096] slab of joined rows, four [4096, 256] slabs of
  transposed gate weights, the [4, 256] slab of the four biases and the [512, 256] slab of old cell
  states — and overwrites two [512, 256] blocks whole: the new cell states and the new hidden states.
  Each written block is the single whole-block store's value placed over the block
  (`View.canon` of a one-piece list), the value being the body's arithmetic (the generated payload
  terms) of the seven loads, each load a whole-rectangle read of its block; the bias slab is read one
  row at a time, row `g` for gate `g`.
-/
import proofs.«149036_j34626026341075_2_alg».proof.Proof.Gen.Kernel.Skeleton
import Idealize.ShloMosaic.Lib.Pipeline.FrameBody

noncomputable section

namespace Cert.Kernel.Hand

open Cert.Kernel Cert.Kernel.Gen Idealize.ShloMosaic Idealize.ShloMosaic.TcCoe
open Idealize.SL Idealize.SL.Sem

variable {F : FTy → Type} [FloatOps F]

/-- The whole [512, 4096] slab of joined rows. -/
abbrev rRows : Rect S512x4096 := Rect.unit (s := S512x4096) ![0, 0] S512x4096.size inb_S512x4096_S512x4096_0_0
/-- A whole [4096, 256] slab of transposed weights. -/
abbrev rWts : Rect S4096x256 := Rect.unit (s := S4096x256) ![0, 0] S4096x256.size inb_S4096x256_S4096x256_0_0
/-- Row 0 of the bias slab: the forget gate's. -/
abbrev rBias0 : Rect S4x256 := Rect.unit (s := S4x256) ![0, 0] S1x256.size inb_S4x256_S1x256_0_0
/-- Row 1: the input gate's. -/
abbrev rBias1 : Rect S4x256 := Rect.unit (s := S4x256) ![1, 0] S1x256.size inb_S4x256_S1x256_1_0
/-- Row 2: the candidate's. -/
abbrev rBias2 : Rect S4x256 := Rect.unit (s := S4x256) ![2, 0] S1x256.size inb_S4x256_S1x256_2_0
/-- Row 3: the output gate's. -/
abbrev rBias3 : Rect S4x256 := Rect.unit (s := S4x256) ![3, 0] S1x256.size inb_S4x256_S1x256_3_0
/-- A whole [512, 256] block. -/
abbrev rBlk : Rect S512x256 := Rect.unit (s := S512x256) ![0, 0] S512x256.size inb_S512x256_S512x256_0_0

/-- The new cell states' block after the body: the one whole-block store of
    `σ(f) * c + σ(i) * tanh(g)` over the loaded slabs. -/
def cellBlock (xs : Vec F S512x4096 .bf16) (wf wi wg : Vec F S4096x256 .bf16) (bs : Vec F S4x256 .f32) (cs : Vec F S512x256 .f32) :
    Vec F S512x256 .f32 :=
  View.canon [⟨rBlk, k0_pay1 (k0_pay4 (View.ld xs rRows) (View.ld wf rWts) (View.ld bs rBias0))
    (k0_pay5 (View.ld xs rRows) (View.ld wi rWts) (View.ld bs rBias1))
    (k0_pay6 (View.ld xs rRows) (View.ld wg rWts) (View.ld bs rBias2)) (View.ld cs rBlk)⟩]

/-- The new hidden states' block after the body: the one whole-block store of
    `σ(o) * tanh(the new cell state)`. -/
def hiddenBlock (xs : Vec F S512x4096 .bf16) (wf wi wg wo : Vec F S4096x256 .bf16) (bs : Vec F S4x256 .f32) (cs : Vec F S512x256 .f32) :
    Vec F S512x256 .f32 :=
  View.canon [⟨rBlk, k0_pay2 (k0_pay4 (View.ld xs rRows) (View.ld wf rWts) (View.ld bs rBias0))
    (k0_pay5 (View.ld xs rRows) (View.ld wi rWts) (View.ld bs rBias1))
    (k0_pay6 (View.ld xs rRows) (View.ld wg rWts) (View.ld bs rBias2))
    (k0_pay7 (View.ld xs rRows) (View.ld wo rWts) (View.ld bs rBias3)) (View.ld cs rBlk)⟩]

end Cert.Kernel.Hand

end
-- ==== Proof.KernelFrame.lean ====
/-
  The kernel program runs: every weakly fair execution terminates without a fault, leaves the eleven
  argument arrays as launched, and leaves each result array assembled from the blocks the grid points
  wrote back.

  The program is fifteen host operations, then one pipelined region over an 8 × 8 grid. The host
  operations write only their own result buffers, so each argument array is, when the region is
  entered, what it was at launch. Inside the region the pipeline fetches, for grid point t, a block
  of each of seven arrays into a staging buffer, runs the body, and writes two staging buffers back.
  The body is straight-line: it loads its seven inputs whole (the bias slab row by row), computes, and
  overwrites both output buffers whole; the two loads of the output buffers it performs before storing
  are of values it never uses. So after the body the inputs' buffers hold what they held, and the
  outputs' hold `hiddenBlock` and `cellBlock` of the inputs' contents, whatever they held before.
  That is the body's obligation at every point; the launch theorem of the pipeline library turns it
  into the run of the whole program, with every array of the region at what the library computes from
  the per-point contents and every other buffer as the region found it.
-/
import proofs.«149036_j34626026341075_2_alg».proof.Proof.Gen.Kernel.Launch
import proofs.«149036_j34626026341075_2_alg».proof.Proof.Gen.Kernel.Skeleton
import proofs.«149036_j34626026341075_2_alg».proof.Proof.Gen.Kernel.Points
import proofs.«149036_j34626026341075_2_alg».proof.Proof.KernelBlocks
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the fifteen host operations. -/
abbrev entry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation before the region writes argument 0: the region finds it as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 1: the region finds it as launched. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 2: the region finds it as launched. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 3: the region finds it as launched. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 4: the region finds it as launched. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 5: the region finds it as launched. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 6: the region finds it as launched. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 7: the region finds it as launched. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 8: the region finds it as launched. -/
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 9: the region finds it as launched. -/
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 10: the region finds it as launched. -/
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The blocks the pipeline stages -/

/-- Window `w`'s block at grid point `t`, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current staging buffer holds its block at every point, fetched there or not
    (unfetched, the block index has not moved since the point that fetched it), for any per-point
    contents whose array is the region-entry one and whose body leaves the block in place. -/
theorem before_in0_of {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
theorem before_in1_of {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
theorem before_in2_of {c : Dev nD} (dat : Dat τ (Elt F) Unit ℕ (UR sig nD τ) ℕ cfg0 c) (hA : dat.A 2 = entry m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
theorem before_in3_of {c : Dev nD} (dat : Dat τ (Elt F) Unit ℕ (UR sig nD τ) ℕ cfg0 c) (hA : dat.A 3 = entry m c (Pipeline.arrRef spec0 3))
    (hafter : ∀ t, dat.after 3 t = block m c 3 t) (t : Fin cfg0.N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
theorem before_in4_of {c : Dev nD} (dat : Dat τ (Elt F) Unit ℕ (UR sig nD τ) ℕ cfg0 c) (hA : dat.A 4 = entry m c (Pipeline.arrRef spec0 4))
    (hafter : ∀ t, dat.after 4 t = block m c 4 t) (t : Fin cfg0.N) (d) : dat.before 4 t d = block m c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)
theorem before_in5_of {c : Dev nD} (dat : Dat τ (Elt F) Unit ℕ (UR sig nD τ) ℕ cfg0 c) (hA : dat.A 5 = entry m c (Pipeline.arrRef spec0 5))
    (hafter : ∀ t, dat.after 5 t = block m c 5 t) (t : Fin cfg0.N) (d) : dat.before 5 t d = block m c 5 t :=
  (dat.before_in_eq_fetched 5 rfl (fun _ => rfl) (fun _ _ _ => rfl) (fun t => by rw [hafter]; unfold Dat.blockOf block; rw [hA]; try rfl) t d).trans
    (by unfold Dat.fetched Dat.blockOf block; rw [hA]; try rfl)
theorem before_in6_of {c : Dev nD} (dat : Dat τ (Elt F) Unit ℕ (UR sig nD τ) ℕ cfg0 c) (hA : dat.A 6 = entry m c (Pipeline.arrRef spec0 6))
    (hafter : ∀ t, dat.after 6 t = block m c 6 t) (t : Fin cfg0.N) (d) : dat.before 6 t d = block m c 6 t :=
  (dat.before_in_eq_fetched 6 rfl (fun _ => rfl) (fun _ _ _ => rfl) (fun t => by rw [hafter]; unfold Dat.blockOf block; rw [hA]; try rfl) t d).trans
    (by unfold Dat.fetched Dat.blockOf block; rw [hA]; try rfl)

/-! ## The arguments after the run -/

/-- From a run to the launch theorem's post, the argument arrays end as launched: the old cell
    states' array is staged by an input window that is never written back; the others are staged by no
    window and keep their region-entry contents, which are the launch contents. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (entry_main_arg0 m c),
      ((h c).2 main_arg1 (Pipeline.mem_restRefs_of main_arg1 (by decide) (by decide))).trans (entry_main_arg1 m c),
      ((h c).1 6).trans (((dats 0 c).arrAt_in 6 rfl _).trans ((hA c 6).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩) h

/-! ## The body -/

/-- The one whole-block store into a [512, 256] buffer covers it. -/
theorem cover_blk (p0 : Vec F S512x256 .f32) (y : S512x256.Idx) :
    ∃ pc ∈ ([⟨rBlk, p0⟩] : List (View.Piece (Elt F) S512x256 .f32)), y ∈ pc.1.set :=
  View.cover_of_tiled [⟨rBlk, p0⟩] S512x256.size (by rfl) y

set_option maxHeartbeats 4000000 in
/-- The body on whole staging buffers, the inputs' at contents `xs … cs` and the outputs' at anything,
    runs to a continuation that holds the inputs' as they were and the outputs' at `hiddenBlock` and
    `cellBlock` of the inputs'. -/
theorem sound_kernel (c : Dev nD) (E : Set ℕ) (i : grid0.Coords) (arg2 : Memref sig .tc .vmem S512x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole)
    (xs : Vec F S512x4096 .bf16) (wf wi wg wo : Vec F S4096x256 .bf16) (bs : Vec F S4x256 .f32) (cs : Vec F S512x256 .f32) (K : PUnit → sProp 𝕄) :
    iprop(owns (c : Thread nD τ) arg2 fullShare xs ∗ owns (c : Thread nD τ) arg3 fullShare wf ∗ owns (c : Thread nD τ) arg4 fullShare wi ∗ owns (c : Thread nD τ) arg5 fullShare wg ∗ owns (c : Thread nD τ) arg6 fullShare wo ∗ owns (c : Thread nD τ) arg7 fullShare bs ∗ owns (c : Thread nD τ) arg8 fullShare cs ∗ (∃ d, owns (c : Thread nD τ) arg9 fullShare d) ∗ (∃ d, owns (c : Thread nD τ) arg10 fullShare d)
        ∗ (iprop(owns (c : Thread nD τ) arg2 fullShare xs ∗ owns (c : Thread nD τ) arg3 fullShare wf ∗ owns (c : Thread nD τ) arg4 fullShare wi ∗ owns (c : Thread nD τ) arg5 fullShare wg ∗ owns (c : Thread nD τ) arg6 fullShare wo ∗ owns (c : Thread nD τ) arg7 fullShare bs ∗ owns (c : Thread nD τ) arg8 fullShare cs ∗ owns (c : Thread nD τ) arg9 fullShare (hiddenBlock xs wf wi wg wo bs cs) ∗ owns (c : Thread nD τ) arg10 fullShare (cellBlock xs wf wi wg bs cs)) -∗ K ⟨⟩))
      ⊢ wp frame (wpE (defs₀ (F := F)) Variants.none c none) E (cc0__lstm_kernel i arg2 harg2 arg3 harg3 arg4 harg4 arg5 harg5 arg6 harg6 arg7 harg7 arg8 harg8 arg9 harg9 arg10 harg10) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_blk _)
  iexists _; isplitr
  swap; · iexact H8
  ipureintro
  exact View.read_writes_eq_canon _ _ _ (cover_blk _)

end Cert.Kernel.Hand

end
-- ==== Proof.KernelRun.lean ====
/-
  The per-point contents of the staging buffers, the body's obligation at every grid point, and the
  run of the whole program.

  After the body at point t each input's buffer holds the input's block at t (the body does not write
  it), the new hidden states' buffer holds `hiddenBlock` of the seven input blocks at t and the new
  cell states' buffer `cellBlock` of six of them. Since each input's buffer holds its block at every
  point whether or not the pipeline fetched it there, the body's triple applies at every point, and
  the pipeline's launch theorem gives the run.
-/
import proofs.«149036_j34626026341075_2_alg».proof.Proof.KernelFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The per-point contents -/

/-- The arrays as the region finds them; after the body at point `t` each input's buffer at its block, the
    hidden states' buffer at `hiddenBlock` and the cell states' at `cellBlock` of the input blocks; nothing
    carried from point to point, nothing owed, full shares. -/
def dats (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => block m c 5 t
    | ⟨6, _⟩ => block m c 6 t
    | ⟨7, _⟩ => hiddenBlock (block m c 0 t) (block m c 1 t) (block m c 2 t) (block m c 3 t) (block m c 4 t) (block m c 5 t) (block m c 6 t)
    | ⟨8, _⟩ => cellBlock (block m c 0 t) (block m c 1 t) (block m c 2 t) (block m c 3 t) (block m c 5 t) (block m c 6 t)
  Φ _ := Pipeline.ΦA spec0 c
  q _ := fullShare
  owed _ := 0

/-- The arrays are the region-entry contents. -/
theorem A_eq (c : Dev nD) (w : Fin cfg0.W) : (dats m 0 c).A w = entry m c (Pipeline.arrRef spec0 w) := by
  dsimp only [dats]

theorem after0 (c : Dev nD) (t : Fin cfg0.N) : (dats m 0 c).after 0 t = block m c 0 t := by dsimp only [dats]
theorem after1 (c : Dev nD) (t : Fin cfg0.N) : (dats m 0 c).after 1 t = block m c 1 t := by dsimp only [dats]
theorem after2 (c : Dev nD) (t : Fin cfg0.N) : (dats m 0 c).after 2 t = block m c 2 t := by dsimp only [dats]
theorem after3 (c : Dev nD) (t : Fin cfg0.N) : (dats m 0 c).after 3 t = block m c 3 t := by dsimp only [dats]
theorem after4 (c : Dev nD) (t : Fin cfg0.N) : (dats m 0 c).after 4 t = block m c 4 t := by dsimp only [dats]
theorem after5 (c : Dev nD) (t : Fin cfg0.N) : (dats m 0 c).after 5 t = block m c 5 t := by dsimp only [dats]
theorem after6 (c : Dev nD) (t : Fin cfg0.N) : (dats m 0 c).after 6 t = block m c 6 t := by dsimp only [dats]
theorem after7 (c : Dev nD) (t : Fin cfg0.N) : (dats m 0 c).after 7 t = hiddenBlock (block m c 0 t) (block m c 1 t) (block m c 2 t) (block m c 3 t) (block m c 4 t) (block m c 5 t) (block m c 6 t) := by dsimp only [dats]
theorem after8 (c : Dev nD) (t : Fin cfg0.N) : (dats m 0 c).after 8 t = cellBlock (block m c 0 t) (block m c 1 t) (block m c 2 t) (block m c 3 t) (block m c 5 t) (block m c 6 t) := by dsimp only [dats]

theorem before0 (c : Dev nD) (t : Fin cfg0.N) (d) : (dats m 0 c).before 0 t d = block m c 0 t :=
  before_in0_of m (dats m 0 c) (A_eq m c 0) (after0 m c) t d
theorem before1 (c : Dev nD) (t : Fin cfg0.N) (d) : (dats m 0 c).before 1 t d = block m c 1 t :=
  before_in1_of m (dats m 0 c) (A_eq m c 1) (after1 m c) t d
theorem before2 (c : Dev nD) (t : Fin cfg0.N) (d) : (dats m 0 c).before 2 t d = block m c 2 t :=
  before_in2_of m (dats m 0 c) (A_eq m c 2) (after2 m c) t d
theorem before3 (c : Dev nD) (t : Fin cfg0.N) (d) : (dats m 0 c).before 3 t d = block m c 3 t :=
  before_in3_of m (dats m 0 c) (A_eq m c 3) (after3 m c) t d
theorem before4 (c : Dev nD) (t : Fin cfg0.N) (d) : (dats m 0 c).before 4 t d = block m c 4 t :=
  before_in4_of m (dats m 0 c) (A_eq m c 4) (after4 m c) t d
theorem before5 (c : Dev nD) (t : Fin cfg0.N) (d) : (dats m 0 c).before 5 t d = block m c 5 t :=
  before_in5_of m (dats m 0 c) (A_eq m c 5) (after5 m c) t d
theorem before6 (c : Dev nD) (t : Fin cfg0.N) (d) : (dats m 0 c).before 6 t d = block m c 6 t :=
  before_in6_of m (dats m 0 c) (A_eq m c 6) (after6 m c) t d

/-! ## The body's obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' buffers hold their blocks, so the body's triple applies; what the
    region carries and owes passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (block m c 0 t) (block m c 1 t) (block m c 2 t) (block m c 3 t) (block m c 4 t) (block m c 5 t) (block m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, every array
    of the region ending at what the library computes from the per-point contents and every other
    unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- The frame: the program runs and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KernelIdealBlocks.lean ====
/-
  What one grid point's body computes, as functions of the blocks it is handed.

  The body reads seven staged blocks — a [512, 4096] slab of joined rows, four [4096, 256] slabs of
  transposed gate weights, the [4, 256] slab of the four biases and the [512, 256] slab of old cell
  states — and overwrites two [512, 256] blocks whole: the new cell states and the new hidden states.
  Each written block is the single whole-block store's value placed over the block
  (`View.canon` of a one-piece list), the value being the body's arithmetic (the generated payload
  terms) of the seven loads, each load a whole-rectangle read of its block; the bias slab is read one
  row at a time, row `g` for gate `g`.
-/
import proofs.«149036_j34626026341075_2_alg».proof.Proof.Gen.KernelIdeal.Skeleton
import Idealize.ShloMosaic.Lib.Pipeline.FrameBody

noncomputable section

namespace Cert.KernelIdeal.Hand

open Cert.KernelIdeal Cert.KernelIdeal.Gen Idealize.ShloMosaic Idealize.ShloMosaic.TcCoe
open Idealize.SL Idealize.SL.Sem

variable {F : FTy → Type} [FloatOps F]

/-- The whole [512, 4096] slab of joined rows. -/
abbrev rRows : Rect S512x4096 := Rect.unit (s := S512x4096) ![0, 0] S512x4096.size inb_S512x4096_S512x4096_0_0
/-- A whole [4096, 256] slab of transposed weights. -/
abbrev rWts : Rect S4096x256 := Rect.unit (s := S4096x256) ![0, 0] S4096x256.size inb_S4096x256_S4096x256_0_0
/-- Row 0 of the bias slab: the forget gate's. -/
abbrev rBias0 : Rect S4x256 := Rect.unit (s := S4x256) ![0, 0] S1x256.size inb_S4x256_S1x256_0_0
/-- Row 1: the input gate's. -/
abbrev rBias1 : Rect S4x256 := Rect.unit (s := S4x256) ![1, 0] S1x256.size inb_S4x256_S1x256_1_0
/-- Row 2: the candidate's. -/
abbrev rBias2 : Rect S4x256 := Rect.unit (s := S4x256) ![2, 0] S1x256.size inb_S4x256_S1x256_2_0
/-- Row 3: the output gate's. -/
abbrev rBias3 : Rect S4x256 := Rect.unit (s := S4x256) ![3, 0] S1x256.size inb_S4x256_S1x256_3_0
/-- A whole [512, 256] block. -/
abbrev rBlk : Rect S512x256 := Rect.unit (s := S512x256) ![0, 0] S512x256.size inb_S512x256_S512x256_0_0

/-- The new cell states' block after the body: the one whole-block store of
    `σ(f) * c + σ(i) * tanh(g)` over the loaded slabs. -/
def cellBlock (xs : Vec F S512x4096 .bf16) (wf wi wg : Vec F S4096x256 .bf16) (bs : Vec F S4x256 .f32) (cs : Vec F S512x256 .f32) :
    Vec F S512x256 .f32 :=
  View.canon [⟨rBlk, k0_pay1 (k0_pay4 (View.ld xs rRows) (View.ld wf rWts) (View.ld bs rBias0))
    (k0_pay5 (View.ld xs rRows) (View.ld wi rWts) (View.ld bs rBias1))
    (k0_pay6 (View.ld xs rRows) (View.ld wg rWts) (View.ld bs rBias2)) (View.ld cs rBlk)⟩]

/-- The new hidden states' block after the body: the one whole-block store of
    `σ(o) * tanh(the new cell state)`. -/
def hiddenBlock (xs : Vec F S512x4096 .bf16) (wf wi wg wo : Vec F S4096x256 .bf16) (bs : Vec F S4x256 .f32) (cs : Vec F S512x256 .f32) :
    Vec F S512x256 .f32 :=
  View.canon [⟨rBlk, k0_pay2 (k0_pay4 (View.ld xs rRows) (View.ld wf rWts) (View.ld bs rBias0))
    (k0_pay5 (View.ld xs rRows) (View.ld wi rWts) (View.ld bs rBias1))
    (k0_pay6 (View.ld xs rRows) (View.ld wg rWts) (View.ld bs rBias2))
    (k0_pay7 (View.ld xs rRows) (View.ld wo rWts) (View.ld bs rBias3)) (View.ld cs rBlk)⟩]

end Cert.KernelIdeal.Hand

end
-- ==== Proof.KernelIdealFrame.lean ====
/-
  The kernel program runs: every weakly fair execution terminates without a fault, leaves the eleven
  argument arrays as launched, and leaves each result array assembled from the blocks the grid points
  wrote back.

  The program is fifteen host operations, then one pipelined region over an 8 × 8 grid. The host
  operations write only their own result buffers, so each argument array is, when the region is
  entered, what it was at launch. Inside the region the pipeline fetches, for grid point t, a block
  of each of seven arrays into a staging buffer, runs the body, and writes two staging buffers back.
  The body is straight-line: it loads its seven inputs whole (the bias slab row by row), computes, and
  overwrites both output buffers whole; the two loads of the output buffers it performs before storing
  are of values it never uses. So after the body the inputs' buffers hold what they held, and the
  outputs' hold `hiddenBlock` and `cellBlock` of the inputs' contents, whatever they held before.
  That is the body's obligation at every point; the launch theorem of the pipeline library turns it
  into the run of the whole program, with every array of the region at what the library computes from
  the per-point contents and every other buffer as the region found it.
-/
import proofs.«149036_j34626026341075_2_alg».proof.Proof.Gen.KernelIdeal.Launch
import proofs.«149036_j34626026341075_2_alg».proof.Proof.Gen.KernelIdeal.Skeleton
import proofs.«149036_j34626026341075_2_alg».proof.Proof.Gen.KernelIdeal.Points
import proofs.«149036_j34626026341075_2_alg».proof.Proof.KernelIdealBlocks
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the fifteen host operations. -/
abbrev entry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation before the region writes argument 0: the region finds it as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 1: the region finds it as launched. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 2: the region finds it as launched. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 3: the region finds it as launched. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 4: the region finds it as launched. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 5: the region finds it as launched. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 6: the region finds it as launched. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 7: the region finds it as launched. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 8: the region finds it as launched. -/
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 9: the region finds it as launched. -/
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 10: the region finds it as launched. -/
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The blocks the pipeline stages -/

/-- Window `w`'s block at grid point `t`, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current staging buffer holds its block at every point, fetched there or not
    (unfetched, the block index has not moved since the point that fetched it), for any per-point
    contents whose array is the region-entry one and whose body leaves the block in place. -/
theorem before_in0_of {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
theorem before_in1_of {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
theorem before_in2_of {c : Dev nD} (dat : Dat τ (Elt F) Unit ℕ (UR sig nD τ) ℕ cfg0 c) (hA : dat.A 2 = entry m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
theorem before_in3_of {c : Dev nD} (dat : Dat τ (Elt F) Unit ℕ (UR sig nD τ) ℕ cfg0 c) (hA : dat.A 3 = entry m c (Pipeline.arrRef spec0 3))
    (hafter : ∀ t, dat.after 3 t = block m c 3 t) (t : Fin cfg0.N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
theorem before_in4_of {c : Dev nD} (dat : Dat τ (Elt F) Unit ℕ (UR sig nD τ) ℕ cfg0 c) (hA : dat.A 4 = entry m c (Pipeline.arrRef spec0 4))
    (hafter : ∀ t, dat.after 4 t = block m c 4 t) (t : Fin cfg0.N) (d) : dat.before 4 t d = block m c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)
theorem before_in5_of {c : Dev nD} (dat : Dat τ (Elt F) Unit ℕ (UR sig nD τ) ℕ cfg0 c) (hA : dat.A 5 = entry m c (Pipeline.arrRef spec0 5))
    (hafter : ∀ t, dat.after 5 t = block m c 5 t) (t : Fin cfg0.N) (d) : dat.before 5 t d = block m c 5 t :=
  (dat.before_in_eq_fetched 5 rfl (fun _ => rfl) (fun _ _ _ => rfl) (fun t => by rw [hafter]; unfold Dat.blockOf block; rw [hA]; try rfl) t d).trans
    (by unfold Dat.fetched Dat.blockOf block; rw [hA]; try rfl)
theorem before_in6_of {c : Dev nD} (dat : Dat τ (Elt F) Unit ℕ (UR sig nD τ) ℕ cfg0 c) (hA : dat.A 6 = entry m c (Pipeline.arrRef spec0 6))
    (hafter : ∀ t, dat.after 6 t = block m c 6 t) (t : Fin cfg0.N) (d) : dat.before 6 t d = block m c 6 t :=
  (dat.before_in_eq_fetched 6 rfl (fun _ => rfl) (fun _ _ _ => rfl) (fun t => by rw [hafter]; unfold Dat.blockOf block; rw [hA]; try rfl) t d).trans
    (by unfold Dat.fetched Dat.blockOf block; rw [hA]; try rfl)

/-! ## The arguments after the run -/

/-- From a run to the launch theorem's post, the argument arrays end as launched: the old cell
    states' array is staged by an input window that is never written back; the others are staged by no
    window and keep their region-entry contents, which are the launch contents. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (entry_main_arg0 m c),
      ((h c).2 main_arg1 (Pipeline.mem_restRefs_of main_arg1 (by decide) (by decide))).trans (entry_main_arg1 m c),
      ((h c).1 6).trans (((dats 0 c).arrAt_in 6 rfl _).trans ((hA c 6).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩) h

/-! ## The body -/

/-- The one whole-block store into a [512, 256] buffer covers it. -/
theorem cover_blk (p0 : Vec F S512x256 .f32) (y : S512x256.Idx) :
    ∃ pc ∈ ([⟨rBlk, p0⟩] : List (View.Piece (Elt F) S512x256 .f32)), y ∈ pc.1.set :=
  View.cover_of_tiled [⟨rBlk, p0⟩] S512x256.size (by rfl) y

set_option maxHeartbeats 4000000 in
/-- The body on whole staging buffers, the inputs' at contents `xs … cs` and the outputs' at anything,
    runs to a continuation that holds the inputs' as they were and the outputs' at `hiddenBlock` and
    `cellBlock` of the inputs'. -/
theorem sound_kernel (c : Dev nD) (E : Set ℕ) (i : grid0.Coords) (arg2 : Memref sig .tc .vmem S512x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole)
    (xs : Vec F S512x4096 .bf16) (wf wi wg wo : Vec F S4096x256 .bf16) (bs : Vec F S4x256 .f32) (cs : Vec F S512x256 .f32) (K : PUnit → sProp 𝕄) :
    iprop(owns (c : Thread nD τ) arg2 fullShare xs ∗ owns (c : Thread nD τ) arg3 fullShare wf ∗ owns (c : Thread nD τ) arg4 fullShare wi ∗ owns (c : Thread nD τ) arg5 fullShare wg ∗ owns (c : Thread nD τ) arg6 fullShare wo ∗ owns (c : Thread nD τ) arg7 fullShare bs ∗ owns (c : Thread nD τ) arg8 fullShare cs ∗ (∃ d, owns (c : Thread nD τ) arg9 fullShare d) ∗ (∃ d, owns (c : Thread nD τ) arg10 fullShare d)
        ∗ (iprop(owns (c : Thread nD τ) arg2 fullShare xs ∗ owns (c : Thread nD τ) arg3 fullShare wf ∗ owns (c : Thread nD τ) arg4 fullShare wi ∗ owns (c : Thread nD τ) arg5 fullShare wg ∗ owns (c : Thread nD τ) arg6 fullShare wo ∗ owns (c : Thread nD τ) arg7 fullShare bs ∗ owns (c : Thread nD τ) arg8 fullShare cs ∗ owns (c : Thread nD τ) arg9 fullShare (hiddenBlock xs wf wi wg wo bs cs) ∗ owns (c : Thread nD τ) arg10 fullShare (cellBlock xs wf wi wg bs cs)) -∗ K ⟨⟩))
      ⊢ wp frame (wpE (defs₀ (F := F)) Variants.none c none) E (cc0__lstm_kernel i arg2 harg2 arg3 harg3 arg4 harg4 arg5 harg5 arg6 harg6 arg7 harg7 arg8 harg8 arg9 harg9 arg10 harg10) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_blk _)
  iexists _; isplitr
  swap; · iexact H8
  ipureintro
  exact View.read_writes_eq_canon _ _ _ (cover_blk _)

end Cert.KernelIdeal.Hand

end
-- ==== Proof.KernelIdealRun.lean ====
/-
  The per-point contents of the staging buffers, the body's obligation at every grid point, and the
  run of the whole program.

  After the body at point t each input's buffer holds the input's block at t (the body does not write
  it), the new hidden states' buffer holds `hiddenBlock` of the seven input blocks at t and the new
  cell states' buffer `cellBlock` of six of them. Since each input's buffer holds its block at every
  point whether or not the pipeline fetched it there, the body's triple applies at every point, and
  the pipeline's launch theorem gives the run.
-/
import proofs.«149036_j34626026341075_2_alg».proof.Proof.KernelIdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The per-point contents -/

/-- The arrays as the region finds them; after the body at point `t` each input's buffer at its block, the
    hidden states' buffer at `hiddenBlock` and the cell states' at `cellBlock` of the input blocks; nothing
    carried from point to point, nothing owed, full shares. -/
def dats (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => block m c 5 t
    | ⟨6, _⟩ => block m c 6 t
    | ⟨7, _⟩ => hiddenBlock (block m c 0 t) (block m c 1 t) (block m c 2 t) (block m c 3 t) (block m c 4 t) (block m c 5 t) (block m c 6 t)
    | ⟨8, _⟩ => cellBlock (block m c 0 t) (block m c 1 t) (block m c 2 t) (block m c 3 t) (block m c 5 t) (block m c 6 t)
  Φ _ := Pipeline.ΦA spec0 c
  q _ := fullShare
  owed _ := 0

/-- The arrays are the region-entry contents. -/
theorem A_eq (c : Dev nD) (w : Fin cfg0.W) : (dats m 0 c).A w = entry m c (Pipeline.arrRef spec0 w) := by
  dsimp only [dats]

theorem after0 (c : Dev nD) (t : Fin cfg0.N) : (dats m 0 c).after 0 t = block m c 0 t := by dsimp only [dats]
theorem after1 (c : Dev nD) (t : Fin cfg0.N) : (dats m 0 c).after 1 t = block m c 1 t := by dsimp only [dats]
theorem after2 (c : Dev nD) (t : Fin cfg0.N) : (dats m 0 c).after 2 t = block m c 2 t := by dsimp only [dats]
theorem after3 (c : Dev nD) (t : Fin cfg0.N) : (dats m 0 c).after 3 t = block m c 3 t := by dsimp only [dats]
theorem after4 (c : Dev nD) (t : Fin cfg0.N) : (dats m 0 c).after 4 t = block m c 4 t := by dsimp only [dats]
theorem after5 (c : Dev nD) (t : Fin cfg0.N) : (dats m 0 c).after 5 t = block m c 5 t := by dsimp only [dats]
theorem after6 (c : Dev nD) (t : Fin cfg0.N) : (dats m 0 c).after 6 t = block m c 6 t := by dsimp only [dats]
theorem after7 (c : Dev nD) (t : Fin cfg0.N) : (dats m 0 c).after 7 t = hiddenBlock (block m c 0 t) (block m c 1 t) (block m c 2 t) (block m c 3 t) (block m c 4 t) (block m c 5 t) (block m c 6 t) := by dsimp only [dats]
theorem after8 (c : Dev nD) (t : Fin cfg0.N) : (dats m 0 c).after 8 t = cellBlock (block m c 0 t) (block m c 1 t) (block m c 2 t) (block m c 3 t) (block m c 5 t) (block m c 6 t) := by dsimp only [dats]

theorem before0 (c : Dev nD) (t : Fin cfg0.N) (d) : (dats m 0 c).before 0 t d = block m c 0 t :=
  before_in0_of m (dats m 0 c) (A_eq m c 0) (after0 m c) t d
theorem before1 (c : Dev nD) (t : Fin cfg0.N) (d) : (dats m 0 c).before 1 t d = block m c 1 t :=
  before_in1_of m (dats m 0 c) (A_eq m c 1) (after1 m c) t d
theorem before2 (c : Dev nD) (t : Fin cfg0.N) (d) : (dats m 0 c).before 2 t d = block m c 2 t :=
  before_in2_of m (dats m 0 c) (A_eq m c 2) (after2 m c) t d
theorem before3 (c : Dev nD) (t : Fin cfg0.N) (d) : (dats m 0 c).before 3 t d = block m c 3 t :=
  before_in3_of m (dats m 0 c) (A_eq m c 3) (after3 m c) t d
theorem before4 (c : Dev nD) (t : Fin cfg0.N) (d) : (dats m 0 c).before 4 t d = block m c 4 t :=
  before_in4_of m (dats m 0 c) (A_eq m c 4) (after4 m c) t d
theorem before5 (c : Dev nD) (t : Fin cfg0.N) (d) : (dats m 0 c).before 5 t d = block m c 5 t :=
  before_in5_of m (dats m 0 c) (A_eq m c 5) (after5 m c) t d
theorem before6 (c : Dev nD) (t : Fin cfg0.N) (d) : (dats m 0 c).before 6 t d = block m c 6 t :=
  before_in6_of m (dats m 0 c) (A_eq m c 6) (after6 m c) t d

/-! ## The body's obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' buffers hold their blocks, so the body's triple applies; what the
    region carries and owes passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (block m c 0 t) (block m c 1 t) (block m c 2 t) (block m c 3 t) (block m c 4 t) (block m c 5 t) (block m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, every array
    of the region ending at what the library computes from the per-point contents and every other
    unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- The frame: the program runs and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.KernelIdealTiles.lean ====
/-
  Where the blocks sit.

  Grid point t = (n, b) — n the hidden tile, b the batch tile — stages rows b·512 … b·512+511 of the
  joined rows (all 4096 columns), columns n·256 … n·256+255 of each transposed weight matrix (all 4096
  rows) and of the bias slab (all four rows), and the [512, 256] tile at (b, n) of the old cell
  states; it writes back the tile at (b, n) of each result. These relations between the nine index
  maps are decided once over the 64 grid points. From them: entry (p, k) of a staged block is the
  array's entry at the shifted coordinates, and the 64 written tiles cover each [4096, 2048] result
  (the tile holding entry (r, s) is (r / 512, s / 256)).
-/
import proofs.«149036_j34626026341075_2_alg».proof.Proof.KernelIdealRun
import Idealize.ShloMosaic.Lib.Pipeline.Value
import Idealize.ShloMosaic.Lib.ValueIdx

set_option maxRecDepth 16384

noncomputable section

namespace Cert.KernelIdeal.Tiles

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The nine index maps, related over the grid: the joined rows move with the result's row tile, the
    weights and biases with its column tile, the old cell states and the second result with both. -/
theorem idx_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = win0_7.index t (1 : Fin 2)
    ∧ win0_2.index t (0 : Fin 2) = 0 ∧ win0_2.index t (1 : Fin 2) = win0_7.index t (1 : Fin 2)
    ∧ win0_3.index t (0 : Fin 2) = 0 ∧ win0_3.index t (1 : Fin 2) = win0_7.index t (1 : Fin 2)
    ∧ win0_4.index t (0 : Fin 2) = 0 ∧ win0_4.index t (1 : Fin 2) = win0_7.index t (1 : Fin 2)
    ∧ win0_5.index t (0 : Fin 2) = 0 ∧ win0_5.index t (1 : Fin 2) = win0_7.index t (1 : Fin 2)
    ∧ win0_6.index t (0 : Fin 2) = win0_7.index t (0 : Fin 2) ∧ win0_6.index t (1 : Fin 2) = win0_7.index t (1 : Fin 2)
    ∧ win0_8.index t (0 : Fin 2) = win0_7.index t (0 : Fin 2) ∧ win0_8.index t (1 : Fin 2) = win0_7.index t (1 : Fin 2)
    ∧ win0_7.index t (0 : Fin 2) ≤ 7 ∧ win0_7.index t (1 : Fin 2) ≤ 7 :=
  (by decide +kernel : ∀ t : Fin grid0.N, _)

/-- Every tile of a result is some grid point's. -/
theorem idx_onto : ∀ (q0 q1 : Fin 8), ∃ t : Fin cfg0.N, win0_7.index t = ![q0.val, q1.val] :=
  (by decide +kernel : ∀ (q0 q1 : Fin 8), ∃ t : Fin grid0.N, win0_7.index t = ![q0.val, q1.val])

/-- The batch row that row `p` of point `t`'s tile is. -/
def rowOf (t : Fin cfg0.N) (p : Fin 512) : Fin 4096 :=
  ⟨win0_7.index t (0 : Fin 2) * 512 + p.val, by
    have h := (idx_facts t).2.2.2.2.2.2.2.2.2.2.2.2.2.2.2.2.1
    have hp := p.isLt
    omega⟩

/-- The hidden unit that column `q` of point `t`'s tile is. -/
def colOf (t : Fin cfg0.N) (q : Fin 256) : Fin 2048 :=
  ⟨win0_7.index t (1 : Fin 2) * 256 + q.val, by
    have h := (idx_facts t).2.2.2.2.2.2.2.2.2.2.2.2.2.2.2.2.2
    have hq := q.isLt
    omega⟩

/-! ## A staged block's entry is its array's entry at the shifted coordinates -/

/-- Row `p` of the staged joined rows is batch row `rowOf t p`. -/
theorem read_rows (t : Fin cfg0.N) (p : Fin 512) (k : Fin 4096) :
    block m c 0 t (ix2 p k) = entry m c main_v1 (ix2 (rowOf t p) k) := by
  show entry m c main_v1 (((cfg0.win 0).blk t).view.emb (ix2 p k)) = _
  refine congrArg _ ?_
  obtain ⟨e0, e1, -⟩ := idx_facts t
  funext a; apply Fin.ext
  match a with
  | ⟨0, _⟩ => show win0_0.index t (0 : Fin 2) * 512 + 1 * p.val = win0_7.index t (0 : Fin 2) * 512 + p.val; omega
  | ⟨1, _⟩ => show win0_0.index t (1 : Fin 2) * 4096 + 1 * k.val = k.val; omega

/-- Column `q` of a staged weight slab is hidden unit `colOf t q`: the forget gate's, -/
theorem read_wf (t : Fin cfg0.N) (k : Fin 4096) (q : Fin 256) :
    block m c 1 t (ix2 k q) = entry m c main_v3 (ix2 k (colOf t q)) := by
  show entry m c main_v3 (((cfg0.win 1).blk t).view.emb (ix2 k q)) = _
  refine congrArg _ ?_
  obtain ⟨-, -, e0, e1, -⟩ := idx_facts t
  funext a; apply Fin.ext
  match a with
  | ⟨0, _⟩ => show win0_1.index t (0 : Fin 2) * 4096 + 1 * k.val = k.val; omega
  | ⟨1, _⟩ => show win0_1.index t (1 : Fin 2) * 256 + 1 * q.val = win0_7.index t (1 : Fin 2) * 256 + q.val; omega

/-- the input gate's, -/
theorem read_wi (t : Fin cfg0.N) (k : Fin 4096) (q : Fin 256) :
    block m c 2 t (ix2 k q) = entry m c main_v5 (ix2 k (colOf t q)) := by
  show entry m c main_v5 (((cfg0.win 2).blk t).view.emb (ix2 k q)) = _
  refine congrArg _ ?_
  obtain ⟨-, -, -, -, e0, e1, -⟩ := idx_facts t
  funext a; apply Fin.ext
  match a with
  | ⟨0, _⟩ => show win0_2.index t (0 : Fin 2) * 4096 + 1 * k.val = k.val; omega
  | ⟨1, _⟩ => show win0_2.index t (1 : Fin 2) * 256 + 1 * q.val = win0_7.index t (1 : Fin 2) * 256 + q.val; omega

/-- the candidate's, -/
theorem read_wg (t : Fin cfg0.N) (k : Fin 4096) (q : Fin 256) :
    block m c 3 t (ix2 k q) = entry m c main_v7 (ix2 k (colOf t q)) := by
  show entry m c main_v7 (((cfg0.win 3).blk t).view.emb (ix2 k q)) = _
  refine congrArg _ ?_
  obtain ⟨-, -, -, -, -, -, e0, e1, -⟩ := idx_facts t
  funext a; apply Fin.ext
  match a with
  | ⟨0, _⟩ => show win0_3.index t (0 : Fin 2) * 4096 + 1 * k.val = k.val; omega
  | ⟨1, _⟩ => show win0_3.index t (1 : Fin 2) * 256 + 1 * q.val = win0_7.index t (1 : Fin 2) * 256 + q.val; omega

/-- and the output gate's. -/
theorem read_wo (t : Fin cfg0.N) (k : Fin 4096) (q : Fin 256) :
    block m c 4 t (ix2 k q) = entry m c main_v9 (ix2 k (colOf t q)) := by
  show entry m c main_v9 (((cfg0.win 4).blk t).view.emb (ix2 k q)) = _
  refine congrArg _ ?_
  obtain ⟨-, -, -, -, -, -, -, -, e0, e1, -⟩ := idx_facts t
  funext a; apply Fin.ext
  match a with
  | ⟨0, _⟩ => show win0_4.index t (0 : Fin 2) * 4096 + 1 * k.val = k.val; omega
  | ⟨1, _⟩ => show win0_4.index t (1 : Fin 2) * 256 + 1 * q.val = win0_7.index t (1 : Fin 2) * 256 + q.val; omega

/-- Row `g`, column `q` of the staged bias slab is gate `g`'s bias of hidden unit `colOf t q`. -/
theorem read_bias (t : Fin cfg0.N) (g : Fin 4) (q : Fin 256) :
    block m c 5 t (ix2 g q) = entry m c main_v14 (ix2 g (colOf t q)) := by
  show entry m c main_v14 (((cfg0.win 5).blk t).view.emb (ix2 g q)) = _
  refine congrArg _ ?_
  obtain ⟨-, -, -, -, -, -, -, -, -, -, e0, e1, -⟩ := idx_facts t
  funext a; apply Fin.ext
  match a with
  | ⟨0, _⟩ => show win0_5.index t (0 : Fin 2) * 4 + 1 * g.val = g.val; omega
  | ⟨1, _⟩ => show win0_5.index t (1 : Fin 2) * 256 + 1 * q.val = win0_7.index t (1 : Fin 2) * 256 + q.val; omega

/-- Entry `(p, q)` of the staged old cell states is the launched array's at `(rowOf t p, colOf t q)`. -/
theorem read_cell (t : Fin cfg0.N) (p : Fin 512) (q : Fin 256) :
    block m c 6 t (ix2 p q) = m ((c : Thread nD τ).loc main_arg2) (ix2 (rowOf t p) (colOf t q)) := by
  show entry m c main_arg2 (((cfg0.win 6).blk t).view.emb (ix2 p q)) = _
  rw [entry_main_arg2 m c]
  refine congrArg _ ?_
  obtain ⟨-, -, -, -, -, -, -, -, -, -, -, -, e0, e1, -⟩ := idx_facts t
  funext a; apply Fin.ext
  match a with
  | ⟨0, _⟩ => show win0_6.index t (0 : Fin 2) * 512 + 1 * p.val = win0_7.index t (0 : Fin 2) * 512 + p.val; omega
  | ⟨1, _⟩ => show win0_6.index t (1 : Fin 2) * 256 + 1 * q.val = win0_7.index t (1 : Fin 2) * 256 + q.val; omega

/-- Entry `(p, q)` of the hidden states' tile at point `t` sits at `(rowOf t p, colOf t q)` of the array, -/
theorem emb_hidden (t : Fin cfg0.N) (p : Fin 512) (q : Fin 256) :
    ((cfg0.win 7).blk t).view.emb (ix2 p q) = ix2 (rowOf t p) (colOf t q) := by
  funext a; apply Fin.ext
  match a with
  | ⟨0, _⟩ => show win0_7.index t (0 : Fin 2) * 512 + 1 * p.val = win0_7.index t (0 : Fin 2) * 512 + p.val; omega
  | ⟨1, _⟩ => show win0_7.index t (1 : Fin 2) * 256 + 1 * q.val = win0_7.index t (1 : Fin 2) * 256 + q.val; omega

/-- and so does the cell states' tile's. -/
theorem emb_cell (t : Fin cfg0.N) (p : Fin 512) (q : Fin 256) :
    ((cfg0.win 8).blk t).view.emb (ix2 p q) = ix2 (rowOf t p) (colOf t q) := by
  obtain ⟨-, -, -, -, -, -, -, -, -, -, -, -, -, -, e0, e1, -⟩ := idx_facts t
  funext a; apply Fin.ext
  match a with
  | ⟨0, _⟩ => show win0_8.index t (0 : Fin 2) * 512 + 1 * p.val = win0_7.index t (0 : Fin 2) * 512 + p.val; omega
  | ⟨1, _⟩ => show win0_8.index t (1 : Fin 2) * 256 + 1 * q.val = win0_7.index t (1 : Fin 2) * 256 + q.val; omega

/-! ## The written tiles cover each result -/

/-- An index of the hidden states' array is in point `t`'s tile iff each coordinate is in the tile's range. -/
theorem mem_hidden (t : Fin cfg0.N) (i : S4096x2048.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v15_0).slice (win0_7.rect t)).set ↔ _
  rw [View.set_slice_whole, Rect.mem_set_unit]
  exact Iff.rfl

/-- The same for the cell states' array. -/
theorem mem_cell (t : Fin cfg0.N) (i : S4096x2048.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v15_1).slice (win0_8.rect t)).set ↔ _
  rw [View.set_slice_whole, Rect.mem_set_unit]
  exact Iff.rfl

/-- Every index of the hidden states' array is in the tile of the point at `(r / 512, s / 256)`. -/
theorem cover_hidden (i : S4096x2048.Idx) :
    ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_7.index t (0 : Fin 2) = (i 0).val / 512 := congrFun ht 0
  have q1 : win0_7.index t (1 : Fin 2) = (i 1).val / 256 := congrFun ht 1
  refine ⟨t, flush0_7 t, ?_⟩
  rw [mem_hidden]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-- And every index of the cell states' array likewise. -/
theorem cover_cell (i : S4096x2048.Idx) :
    ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_7.index t (0 : Fin 2) = (i 0).val / 512 := congrFun ht 0
  have q1 : win0_7.index t (1 : Fin 2) = (i 1).val / 256 := congrFun ht 1
  obtain ⟨-, -, -, -, -, -, -, -, -, -, -, -, -, -, e0, e1, -⟩ := idx_facts t
  refine ⟨t, flush0_8 t, ?_⟩
  rw [mem_cell]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 256 ≤ (i 1).val ∧ (i 1).val < win0_8.index t (1 : Fin 2) * 256 + 256; omega

end Cert.KernelIdeal.Tiles

end
-- ==== Proof.Spec.lean ====
/-
  One step of an LSTM cell, as a function of its eleven arrays, over the extended reals.

  The row the gates see is the previous hidden state followed by the input: `joined h x b k` is
  `h b k` for `k < 2048` and `x b (k - 2048)` from there on. Each of the four gates has a weight
  matrix `W : [2048, 4096]` and a bias `[2048]`; its pre-activation at batch row `b` and hidden unit
  `j` is the inner product of the joined row with row `j` of `W`, plus the bias:
      pre W bias b j = (∑ k, joined h x b k * W j k) + bias j.
  With `σ t = 1 / (1 + e^(-t))` the forget, input and output gates are `σ` of their pre-activations
  and the candidate is `tanh` of its own; the new cell state and the new hidden state are
      c' b j = σ(pre_f) * c b j + σ(pre_i) * tanh(pre_g),
      h' b j = σ(pre_o) * tanh(c' b j).
  Nothing here needs the entries to be finite: the sum is a finite sum in a commutative monoid, and
  the remaining operations are applied entry by entry.
-/
import Idealize.ShloMosaic.PureOps.Ideal
import Idealize.ShloMosaic.Lib.ValueIdx

noncomputable section

namespace Cert.Lstm

open Idealize.ShloMosaic Idealize.ShloMosaic.ValueIdx

/-- batch × hidden (also batch × input: the two widths are equal here). -/
abbrev BxH : Shape := ⟨2, ![4096, 2048]⟩
/-- hidden × (hidden + input): one gate's weight matrix. -/
abbrev HxK : Shape := ⟨2, ![2048, 4096]⟩
/-- one gate's bias. -/
abbrev Hv : Shape := ⟨1, ![2048]⟩

/-- Entry `k` of batch row `b` of the joined row `[h, x]`. -/
def joined (h x : BxH.Idx → EReal) (b : Fin 4096) (k : Fin 4096) : EReal :=
  if hk : k.val < 2048 then h (ix2 b ⟨k.val, hk⟩) else x (ix2 b ⟨k.val - 2048, by omega⟩)

/-- The inner product of two families over the 4096 joined positions. -/
def dot (u v : Fin 4096 → EReal) : EReal := ∑ k : Fin 4096, u k * v k

/-- A gate's pre-activation: the joined row against row `j` of the gate's weights, plus its bias. -/
def pre (h x : BxH.Idx → EReal) (W : HxK.Idx → EReal) (bias : Hv.Idx → EReal) (b : Fin 4096) (j : Fin 2048) : EReal :=
  dot (joined h x b) (fun k => W (ix2 j k)) + bias (ix1 j)

/-- The cell update on one entry, from the three pre-activations it uses and the old cell state:
    `σ pf * cOld + σ pi * tanh pg`. -/
def cellOf (pf pi pg cOld : EReal) : EReal :=
  Ideal.logistic pf * cOld + Ideal.logistic pi * Ideal.tanh pg

/-- The hidden update on one entry: `σ po * tanh (the new cell state)`. -/
def hiddenOf (pf pi pg po cOld : EReal) : EReal :=
  Ideal.logistic po * Ideal.tanh (cellOf pf pi pg cOld)

/-- The new cell state at `(b, j)`: forget gate times the old state plus input gate times candidate. -/
def cellAt (x h c : BxH.Idx → EReal) (Wf : HxK.Idx → EReal) (bf : Hv.Idx → EReal) (Wi : HxK.Idx → EReal) (bi : Hv.Idx → EReal)
    (Wg : HxK.Idx → EReal) (bg : Hv.Idx → EReal) (b : Fin 4096) (j : Fin 2048) : EReal :=
  cellOf (pre h x Wf bf b j) (pre h x Wi bi b j) (pre h x Wg bg b j) (c (ix2 b j))

/-- The new hidden state at `(b, j)`: output gate times `tanh` of the new cell state. -/
def hiddenAt (x h c : BxH.Idx → EReal) (Wf : HxK.Idx → EReal) (bf : Hv.Idx → EReal) (Wi : HxK.Idx → EReal) (bi : Hv.Idx → EReal)
    (Wg : HxK.Idx → EReal) (bg : Hv.Idx → EReal) (Wo : HxK.Idx → EReal) (bo : Hv.Idx → EReal) (b : Fin 4096) (j : Fin 2048) : EReal :=
  hiddenOf (pre h x Wf bf b j) (pre h x Wi bi b j) (pre h x Wg bg b j) (pre h x Wo bo b j) (c (ix2 b j))

/-- The new cell state as a whole array. -/
def cellArr (x h c : BxH.Idx → EReal) (Wf : HxK.Idx → EReal) (bf : Hv.Idx → EReal) (Wi : HxK.Idx → EReal) (bi : Hv.Idx → EReal)
    (Wg : HxK.Idx → EReal) (bg : Hv.Idx → EReal) : BxH.Idx → EReal :=
  fun i => cellAt x h c Wf bf Wi bi Wg bg ⟨(i 0).val, (i 0).isLt⟩ ⟨(i 1).val, (i 1).isLt⟩

/-- The new hidden state as a whole array. -/
def hiddenArr (x h c : BxH.Idx → EReal) (Wf : HxK.Idx → EReal) (bf : Hv.Idx → EReal) (Wi : HxK.Idx → EReal) (bi : Hv.Idx → EReal)
    (Wg : HxK.Idx → EReal) (bg : Hv.Idx → EReal) (Wo : HxK.Idx → EReal) (bo : Hv.Idx → EReal) : BxH.Idx → EReal :=
  fun i => hiddenAt x h c Wf bf Wi bi Wg bg Wo bo ⟨(i 0).val, (i 0).isLt⟩ ⟨(i 1).val, (i 1).isLt⟩

theorem cellArr_ix2 (x h c : BxH.Idx → EReal) (Wf : HxK.Idx → EReal) (bf : Hv.Idx → EReal) (Wi : HxK.Idx → EReal) (bi : Hv.Idx → EReal)
    (Wg : HxK.Idx → EReal) (bg : Hv.Idx → EReal) (b : Fin 4096) (j : Fin 2048) :
    cellArr x h c Wf bf Wi bi Wg bg (ix2 b j) = cellAt x h c Wf bf Wi bi Wg bg b j := rfl

theorem hiddenArr_ix2 (x h c : BxH.Idx → EReal) (Wf : HxK.Idx → EReal) (bf : Hv.Idx → EReal) (Wi : HxK.Idx → EReal) (bi : Hv.Idx → EReal)
    (Wg : HxK.Idx → EReal) (bg : Hv.Idx → EReal) (Wo : HxK.Idx → EReal) (bo : Hv.Idx → EReal) (b : Fin 4096) (j : Fin 2048) :
    hiddenArr x h c Wf bf Wi bi Wg bg Wo bo (ix2 b j) = hiddenAt x h c Wf bf Wi bi Wg bg Wo bo b j := rfl

end Cert.Lstm

end
-- ==== Proof.HostPrefix.lean ====
/-
  What the kernel's host operations hand its region.

  Before its one region the kernel program runs fifteen host operations: it joins the previous hidden
  state and the input into one row per batch entry, changes the format of that row and of the four
  weight matrices (a change of format is the identity over the extended reals), transposes the weight
  matrices, and stacks the four biases as the rows of one [4, 2048] array. This module reads the six
  arrays the region stages, entry by entry, in terms of the program's arguments:
    * the joined row at (b, k) is the specification's `joined h x b k`;
    * each transposed weight matrix at (k, j) is the weight matrix at (j, k);
    * row g of the stacked biases at j is the g-th bias at j.
-/
import proofs.«149036_j34626026341075_2_alg».proof.Proof.Gen.KernelIdeal.Launch
import proofs.«149036_j34626026341075_2_alg».proof.Proof.Spec
import Idealize.ShloMosaic.Lib.Pipeline.Value
import Idealize.ShloMosaic.Lib.ValueIdx
import Idealize.ShloMosaic.Lib.StableHlo.Run

noncomputable section

namespace Cert.KernelIdeal.Prefix

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- Core c's buffer b when the region is entered. -/
abbrev entered (b : Ref sig .tc) : Buf (Elt Ideal) ((c : Thread nD τ).loc b) :=
  StableHlo.after (hostOps0 (F := Ideal)) (fun b => m (c, b)) b

/-! ## The whole arrays, as the operations' terms -/

/-- The joined row as the region finds it: the hidden state and the input side by side, its format changed. -/
theorem entered_v1 :
    @Eq (S4096x4096.Idx → EReal) (entered m c main_v1)
      (truncf (F := Ideal) .bf16 (concatenate S4096x4096 1 [⟨S4096x2048, (m ((c : Thread nD τ).loc main_arg1))⟩, ⟨S4096x2048, (m ((c : Thread nD τ).loc main_arg0))⟩] concatenates_S4096x2048_S4096x2048_S4096x4096_d1) bitsLt_bf16_f32) := by
  dsimp only [entered, hostOps0]; after_results <;> rfl

/-- The forget gate's weight matrix as the region finds it: its change of format, transposed. -/
theorem entered_v3 :
    @Eq (S4096x2048.Idx → EReal) (entered m c main_v3)
      (transpose S4096x2048 [1, 0] (truncf (F := Ideal) .bf16 (m ((c : Thread nD τ).loc main_arg3)) bitsLt_bf16_f32) transposes_S2048x4096_S4096x2048_1_0) := by
  dsimp only [entered, hostOps0]; after_results <;> rfl

/-- The input gate's weight matrix as the region finds it: its change of format, transposed. -/
theorem entered_v5 :
    @Eq (S4096x2048.Idx → EReal) (entered m c main_v5)
      (transpose S4096x2048 [1, 0] (truncf (F := Ideal) .bf16 (m ((c : Thread nD τ).loc main_arg5)) bitsLt_bf16_f32) transposes_S2048x4096_S4096x2048_1_0) := by
  dsimp only [entered, hostOps0]; after_results <;> rfl

/-- The candidate's weight matrix as the region finds it: its change of format, transposed. -/
theorem entered_v7 :
    @Eq (S4096x2048.Idx → EReal) (entered m c main_v7)
      (transpose S4096x2048 [1, 0] (truncf (F := Ideal) .bf16 (m ((c : Thread nD τ).loc main_arg7)) bitsLt_bf16_f32) transposes_S2048x4096_S4096x2048_1_0) := by
  dsimp only [entered, hostOps0]; after_results <;> rfl

/-- The output gate's weight matrix as the region finds it: its change of format, transposed. -/
theorem entered_v9 :
    @Eq (S4096x2048.Idx → EReal) (entered m c main_v9)
      (transpose S4096x2048 [1, 0] (truncf (F := Ideal) .bf16 (m ((c : Thread nD τ).loc main_arg9)) bitsLt_bf16_f32) transposes_S2048x4096_S4096x2048_1_0) := by
  dsimp only [entered, hostOps0]; after_results <;> rfl

/-- The four biases, each laid out as a [1, 2048] row, in the order forget, input, candidate, output. -/
abbrev biasRows : List ((s : Shape) × (s.Idx → EReal)) :=
  [⟨S1x2048, broadcastInDim S1x2048 ![1] bcast_S2048_S1x2048_1 (m ((c : Thread nD τ).loc main_arg4))⟩,
   ⟨S1x2048, broadcastInDim S1x2048 ![1] bcast_S2048_S1x2048_1 (m ((c : Thread nD τ).loc main_arg6))⟩,
   ⟨S1x2048, broadcastInDim S1x2048 ![1] bcast_S2048_S1x2048_1 (m ((c : Thread nD τ).loc main_arg8))⟩,
   ⟨S1x2048, broadcastInDim S1x2048 ![1] bcast_S2048_S1x2048_1 (m ((c : Thread nD τ).loc main_arg10))⟩]

/-- The stacked biases as the region finds them: the four rows one under the other. -/
theorem entered_v14 :
    @Eq (S4x2048.Idx → EReal) (entered m c main_v14)
      (concatenate S4x2048 0 (biasRows m c) concatenates_S1x2048_S1x2048_S1x2048_S1x2048_S4x2048_d0) := by
  dsimp only [entered, hostOps0]; after_results <;> rfl

/-! ## The arrays at an index -/

/-- A weight matrix whose format was changed and which was then transposed, at (k, j): the matrix at (j, k).
    Over the extended reals a change of format is the identity. -/
theorem weight_read (W : S2048x4096.Idx → EReal) (k : Fin 4096) (j : Fin 2048) :
    transpose S4096x2048 [1, 0] (truncf (F := Ideal) .bf16 W bitsLt_bf16_f32) transposes_S2048x4096_S4096x2048_1_0 (ix2 k j) = W (ix2 j k) :=
  transpose_apply [1, 0] (truncf (F := Ideal) .bf16 W bitsLt_bf16_f32) transposes_S2048x4096_S4096x2048_1_0 (ix2 k j) (ix2 j k)
    (fun b => match b with
      | ⟨0, _⟩ => rfl
      | ⟨1, _⟩ => rfl)

theorem wf_at (k : Fin 4096) (j : Fin 2048) : entered m c main_v3 (ix2 k j) = m ((c : Thread nD τ).loc main_arg3) (ix2 j k) := by
  refine (congrFun (entered_v3 m c) (ix2 k j)).trans ?_
  exact weight_read (m ((c : Thread nD τ).loc main_arg3)) k j

theorem wi_at (k : Fin 4096) (j : Fin 2048) : entered m c main_v5 (ix2 k j) = m ((c : Thread nD τ).loc main_arg5) (ix2 j k) := by
  refine (congrFun (entered_v5 m c) (ix2 k j)).trans ?_
  exact weight_read (m ((c : Thread nD τ).loc main_arg5)) k j

theorem wg_at (k : Fin 4096) (j : Fin 2048) : entered m c main_v7 (ix2 k j) = m ((c : Thread nD τ).loc main_arg7) (ix2 j k) := by
  refine (congrFun (entered_v7 m c) (ix2 k j)).trans ?_
  exact weight_read (m ((c : Thread nD τ).loc main_arg7)) k j

theorem wo_at (k : Fin 4096) (j : Fin 2048) : entered m c main_v9 (ix2 k j) = m ((c : Thread nD τ).loc main_arg9) (ix2 j k) := by
  refine (congrFun (entered_v9 m c) (ix2 k j)).trans ?_
  exact weight_read (m ((c : Thread nD τ).loc main_arg9)) k j

/-- The hidden state and the input side by side at (b, k): the hidden state's entry k of row b below 2048, the
    input's entry k - 2048 from there on. -/
theorem joined_at (b k : Fin 4096) :
    entered m c main_v1 (ix2 b k) = Cert.Lstm.joined (m ((c : Thread nD τ).loc main_arg1)) (m ((c : Thread nD τ).loc main_arg0)) b k := by
  refine (congrFun (entered_v1 m c) (ix2 b k)).trans ?_
  show concatenate S4096x4096 1 [⟨S4096x2048, (m ((c : Thread nD τ).loc main_arg1))⟩, ⟨S4096x2048, (m ((c : Thread nD τ).loc main_arg0))⟩] concatenates_S4096x2048_S4096x2048_S4096x4096_d1 (ix2 b k) = _
  unfold Cert.Lstm.joined
  by_cases hk : k.val < 2048
  · rw [dif_pos hk]
    exact concatenate_pair_apply_left (1 : Fin S4096x4096.rank) _ _ concatenates_S4096x2048_S4096x2048_S4096x4096_d1 (ix2 b k) rfl
      (ix2 b ⟨k.val, hk⟩)
      (fun a => match a with
        | ⟨0, _⟩ => rfl
        | ⟨1, _⟩ => rfl)
  · rw [dif_neg hk]
    exact concatenate_pair_apply_right (1 : Fin S4096x4096.rank) _ _ concatenates_S4096x2048_S4096x2048_S4096x4096_d1 (ix2 b k) rfl rfl
      (ix2 b ⟨k.val - 2048, by omega⟩)
      (fun a ha => match a, ha with
        | ⟨0, _⟩, _ => rfl
        | ⟨1, _⟩, ha => absurd rfl ha)
      (show k.val - 2048 + 2048 = k.val by omega)

/-- A bias laid out as a [1, 2048] row, at (0, j): the bias at j. -/
theorem bias_row_read (v : S2048.Idx → EReal) (j : Fin 2048) :
    broadcastInDim S1x2048 ![1] bcast_S2048_S1x2048_1 v (ix2 (0 : Fin 1) j) = v (ix1 j) :=
  broadcastInDim_apply ![1] bcast_S2048_S1x2048_1 v (ix2 (0 : Fin 1) j) (ix1 j)
    (fun a => match a with
      | ⟨0, _⟩ => rfl)

theorem bias0_at (j : Fin 2048) : entered m c main_v14 (ix2 (0 : Fin 4) j) = m ((c : Thread nD τ).loc main_arg4) (ix1 j) := by
  refine (congrFun (entered_v14 m c) (ix2 (0 : Fin 4) j)).trans ?_
  refine (concatenate_apply_piece (0 : Fin S4x2048.rank) (biasRows m c) concatenates_S1x2048_S1x2048_S1x2048_S1x2048_S4x2048_d0 (ix2 (0 : Fin 4) j)
    0 (show 0 < 4 by decide) S1x2048 _ rfl rfl 0 rfl (ix2 (0 : Fin 1) j)
    (fun b hb => match b, hb with
      | ⟨0, _⟩, hb => absurd rfl hb
      | ⟨1, _⟩, _ => rfl) rfl).trans ?_
  exact bias_row_read (m ((c : Thread nD τ).loc main_arg4)) j

theorem bias1_at (j : Fin 2048) : entered m c main_v14 (ix2 (1 : Fin 4) j) = m ((c : Thread nD τ).loc main_arg6) (ix1 j) := by
  refine (congrFun (entered_v14 m c) (ix2 (1 : Fin 4) j)).trans ?_
  refine (concatenate_apply_piece (0 : Fin S4x2048.rank) (biasRows m c) concatenates_S1x2048_S1x2048_S1x2048_S1x2048_S4x2048_d0 (ix2 (1 : Fin 4) j)
    1 (show 1 < 4 by decide) S1x2048 _ rfl rfl 1 rfl (ix2 (0 : Fin 1) j)
    (fun b hb => match b, hb with
      | ⟨0, _⟩, hb => absurd rfl hb
      | ⟨1, _⟩, _ => rfl) rfl).trans ?_
  exact bias_row_read (m ((c : Thread nD τ).loc main_arg6)) j

theorem bias2_at (j : Fin 2048) : entered m c main_v14 (ix2 (2 : Fin 4) j) = m ((c : Thread nD τ).loc main_arg8) (ix1 j) := by
  refine (congrFun (entered_v14 m c) (ix2 (2 : Fin 4) j)).trans ?_
  refine (concatenate_apply_piece (0 : Fin S4x2048.rank) (biasRows m c) concatenates_S1x2048_S1x2048_S1x2048_S1x2048_S4x2048_d0 (ix2 (2 : Fin 4) j)
    2 (show 2 < 4 by decide) S1x2048 _ rfl rfl 2 rfl (ix2 (0 : Fin 1) j)
    (fun b hb => match b, hb with
      | ⟨0, _⟩, hb => absurd rfl hb
      | ⟨1, _⟩, _ => rfl) rfl).trans ?_
  exact bias_row_read (m ((c : Thread nD τ).loc main_arg8)) j

theorem bias3_at (j : Fin 2048) : entered m c main_v14 (ix2 (3 : Fin 4) j) = m ((c : Thread nD τ).loc main_arg10) (ix1 j) := by
  refine (congrFun (entered_v14 m c) (ix2 (3 : Fin 4) j)).trans ?_
  refine (concatenate_apply_piece (0 : Fin S4x2048.rank) (biasRows m c) concatenates_S1x2048_S1x2048_S1x2048_S1x2048_S4x2048_d0 (ix2 (3 : Fin 4) j)
    3 (show 3 < 4 by decide) S1x2048 _ rfl rfl 3 rfl (ix2 (0 : Fin 1) j)
    (fun b hb => match b, hb with
      | ⟨0, _⟩, hb => absurd rfl hb
      | ⟨1, _⟩, _ => rfl) rfl).trans ?_
  exact bias_row_read (m ((c : Thread nD τ).loc main_arg10)) j

end Cert.KernelIdeal.Prefix

end
-- ==== Proof.BlockValue.lean ====
/-
  What one grid point's body computes, entry by entry.

  The body's two written blocks are the cell update and the hidden update applied entry by entry:
  at row `p` and column `q` of the block, each gate's pre-activation is the inner product of row `p`
  of the joined-rows slab with column `q` of that gate's transposed weight slab, plus entry `q` of
  the gate's row of the bias slab; the new cell entry is `σ(f) * c + σ(i) * tanh(g)` and the new
  hidden entry is `σ(o) * tanh` of that.
-/
import proofs.«149036_j34626026341075_2_alg».proof.Proof.KernelIdealBlocks
import proofs.«149036_j34626026341075_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Cert.KernelIdeal.Hand Idealize.ShloMosaic Idealize.ShloMosaic.ValueIdx

/-- The zero offsets of a rank-2 rectangle, spelt as the constant function. -/
theorem hz2 : (![0, 0] : Fin 2 → Nat) = fun _ => 0 := funext fun a => by fin_cases a <;> rfl

/-! ## The block product at an entry -/

theorem lhs_0 (i : S512x256.Idx) (r : Cert.KernelIdeal.dot_S512x4096_S4096x256_S512x256_1_0_0_1_n_n.contr.Idx) :
    (Cert.KernelIdeal.dot_S512x4096_S4096x256_S512x256_1_0_0_1_n_n.lhsIdx i r 0).val = (i 0).val := by
  unfold DotDims.lhsIdx
  rw [dif_neg (show ¬(0 : Fin S512x4096.rank) ∈ Cert.KernelIdeal.dot_S512x4096_S4096x256_S512x256_1_0_0_1_n_n.lhsBatch by decide), dif_pos (show (0 : Fin S512x4096.rank) ∈ Cert.KernelIdeal.dot_S512x4096_S4096x256_S512x256_1_0_0_1_n_n.lhsNonContracting by decide)]
  rfl
theorem lhs_1 (i : S512x256.Idx) (r : Cert.KernelIdeal.dot_S512x4096_S4096x256_S512x256_1_0_0_1_n_n.contr.Idx) :
    (Cert.KernelIdeal.dot_S512x4096_S4096x256_S512x256_1_0_0_1_n_n.lhsIdx i r 1).val = (r ⟨0, by decide⟩).val :=
  Cert.KernelIdeal.dot_S512x4096_S4096x256_S512x256_1_0_0_1_n_n.lhsIdx_val_of_single rfl i r
theorem rhs_0 (i : S512x256.Idx) (r : Cert.KernelIdeal.dot_S512x4096_S4096x256_S512x256_1_0_0_1_n_n.contr.Idx) :
    (Cert.KernelIdeal.dot_S512x4096_S4096x256_S512x256_1_0_0_1_n_n.rhsIdx i r 0).val = (r ⟨0, by decide⟩).val :=
  Cert.KernelIdeal.dot_S512x4096_S4096x256_S512x256_1_0_0_1_n_n.rhsIdx_val_of_single rfl i r
theorem rhs_1 (i : S512x256.Idx) (r : Cert.KernelIdeal.dot_S512x4096_S4096x256_S512x256_1_0_0_1_n_n.contr.Idx) :
    (Cert.KernelIdeal.dot_S512x4096_S4096x256_S512x256_1_0_0_1_n_n.rhsIdx i r 1).val = (i 1).val := by
  unfold DotDims.rhsIdx
  rw [dif_neg (show ¬(1 : Fin S4096x256.rank) ∈ Cert.KernelIdeal.dot_S512x4096_S4096x256_S512x256_1_0_0_1_n_n.rhsBatch by decide), dif_pos (show (1 : Fin S4096x256.rank) ∈ Cert.KernelIdeal.dot_S512x4096_S4096x256_S512x256_1_0_0_1_n_n.rhsNonContracting by decide)]
  rfl

/-- The product of a [512, 4096] slab with a [4096, 256] slab into the zero splat, at `(p, q)`: the
    inner product of row `p` of the first with column `q` of the second. -/
theorem mm_at (xs : FVec Ideal S512x4096 .bf16) (w : FVec Ideal S4096x256 .bf16) (p : Fin 512) (q : Fin 256) :
    matmul Cert.KernelIdeal.dot_S512x4096_S4096x256_S512x256_1_0_0_1_n_n none xs w (constant S512x256 .f32 0x00000000#32) (ix2 p q)
      = Cert.Lstm.dot (fun k => xs (ix2 p k)) (fun k => w (ix2 k q)) := by
  simp only [matmul]
  rw [Ideal.matmul_constant_zero_apply, ← Equiv.sum_comp (contrEquiv1 Cert.KernelIdeal.dot_S512x4096_S4096x256_S512x256_1_0_0_1_n_n 4096 rfl rfl).symm]
  unfold Cert.Lstm.dot
  refine Finset.sum_congr rfl fun k _ => ?_
  have hk := contrEquiv1_symm_val Cert.KernelIdeal.dot_S512x4096_S4096x256_S512x256_1_0_0_1_n_n 4096 rfl rfl k
  have el : Cert.KernelIdeal.dot_S512x4096_S4096x256_S512x256_1_0_0_1_n_n.lhsIdx (ix2 p q) ((contrEquiv1 Cert.KernelIdeal.dot_S512x4096_S4096x256_S512x256_1_0_0_1_n_n 4096 rfl rfl).symm k) = ix2 p k := funext fun a => Fin.ext (by
    match a with
    | ⟨0, _⟩ => exact lhs_0 _ _
    | ⟨1, _⟩ => exact (lhs_1 _ _).trans hk)
  have er : Cert.KernelIdeal.dot_S512x4096_S4096x256_S512x256_1_0_0_1_n_n.rhsIdx (ix2 p q) ((contrEquiv1 Cert.KernelIdeal.dot_S512x4096_S4096x256_S512x256_1_0_0_1_n_n 4096 rfl rfl).symm k) = ix2 k q := funext fun a => Fin.ext (by
    match a with
    | ⟨0, _⟩ => exact (rhs_0 _ _).trans hk
    | ⟨1, _⟩ => exact rhs_1 _ _)
  rw [el, er]

/-! ## The bias rows -/

/-- Row 0 of the bias slab through its one-row rectangle, at column `q`. -/
theorem ld_bias0 (bs : Vec Ideal S4x256 .f32) (q : Fin 256) :
    View.ld bs rBias0 (ix2 (0 : Fin 1) q) = bs (ix2 (0 : Fin 4) q) := by
  show bs (rBias0.idx (ix2 (0 : Fin 1) q)) = bs (ix2 (0 : Fin 4) q)
  refine congrArg bs (funext fun a => Fin.ext ?_)
  match a with
  | ⟨0, _⟩ => rfl
  | ⟨1, _⟩ => show 0 + 1 * q.val = q.val; omega
/-- Row 1 likewise. -/
theorem ld_bias1 (bs : Vec Ideal S4x256 .f32) (q : Fin 256) :
    View.ld bs rBias1 (ix2 (0 : Fin 1) q) = bs (ix2 (1 : Fin 4) q) := by
  show bs (rBias1.idx (ix2 (0 : Fin 1) q)) = bs (ix2 (1 : Fin 4) q)
  refine congrArg bs (funext fun a => Fin.ext ?_)
  match a with
  | ⟨0, _⟩ => rfl
  | ⟨1, _⟩ => show 0 + 1 * q.val = q.val; omega
/-- Row 2 likewise. -/
theorem ld_bias2 (bs : Vec Ideal S4x256 .f32) (q : Fin 256) :
    View.ld bs rBias2 (ix2 (0 : Fin 1) q) = bs (ix2 (2 : Fin 4) q) := by
  show bs (rBias2.idx (ix2 (0 : Fin 1) q)) = bs (ix2 (2 : Fin 4) q)
  refine congrArg bs (funext fun a => Fin.ext ?_)
  match a with
  | ⟨0, _⟩ => rfl
  | ⟨1, _⟩ => show 0 + 1 * q.val = q.val; omega
/-- Row 3 likewise. -/
theorem ld_bias3 (bs : Vec Ideal S4x256 .f32) (q : Fin 256) :
    View.ld bs rBias3 (ix2 (0 : Fin 1) q) = bs (ix2 (3 : Fin 4) q) := by
  show bs (rBias3.idx (ix2 (0 : Fin 1) q)) = bs (ix2 (3 : Fin 4) q)
  refine congrArg bs (funext fun a => Fin.ext ?_)
  match a with
  | ⟨0, _⟩ => rfl
  | ⟨1, _⟩ => show 0 + 1 * q.val = q.val; omega

/-! ## A gate's pre-activation at an entry -/

/-- The slab product plus the broadcast bias row, at `(p, q)`: the inner product of row `p` with
    column `q`, plus the bias row's entry `q`. -/
theorem pre_at (xs : Vec Ideal S512x4096 .bf16) (w : Vec Ideal S4096x256 .bf16) (b : Vec Ideal S1x256 .f32) (p : Fin 512) (q : Fin 256) :
    addf (F := Ideal) (matmul (F := Ideal) (φ₁ := .bf16) (φ₂ := .bf16) Cert.KernelIdeal.dot_S512x4096_S4096x256_S512x256_1_0_0_1_n_n none (k0_pay3 (F := Ideal) xs)
            (shapeCast S4096x256 w shapeCasts_S4096x256_S4096x256) (constant S512x256 .f32 0x00000000#32))
         (broadcastTo S512x256 (shapeCast S1x256 b shapeCasts_S1x256_S1x256) broadcasts_S1x256_S512x256) (ix2 p q)
      = Cert.Lstm.dot (fun k => xs (ix2 p k)) (fun k => w (ix2 k q)) + b (ix2 (0 : Fin 1) q) := by
  unfold k0_pay3
  rw [shapeCast_self, shapeCast_self, shapeCast_self]
  refine (addf_apply _ _ _).trans ?_
  rw [mm_at, broadcastTo_1b_ab_apply]

/-! ## The gates at an entry -/

/-- The forget gate at \`(p, q)\`: \`σ\` of its pre-activation. -/
theorem pay4_at (xs : Vec Ideal S512x4096 .bf16) (w : Vec Ideal S4096x256 .bf16) (b : Vec Ideal S1x256 .f32) (p : Fin 512) (q : Fin 256) :
    k0_pay4 (F := Ideal) xs w b (ix2 p q)
      = Ideal.logistic (Cert.Lstm.dot (fun k => xs (ix2 p k)) (fun k => w (ix2 k q)) + b (ix2 (0 : Fin 1) q)) := by
  unfold k0_pay4
  exact congrArg Ideal.logistic (pre_at xs w b p q)

/-- The input gate at \`(p, q)\`: \`σ\` of its pre-activation. -/
theorem pay5_at (xs : Vec Ideal S512x4096 .bf16) (w : Vec Ideal S4096x256 .bf16) (b : Vec Ideal S1x256 .f32) (p : Fin 512) (q : Fin 256) :
    k0_pay5 (F := Ideal) xs w b (ix2 p q)
      = Ideal.logistic (Cert.Lstm.dot (fun k => xs (ix2 p k)) (fun k => w (ix2 k q)) + b (ix2 (0 : Fin 1) q)) := by
  unfold k0_pay5
  exact congrArg Ideal.logistic (pre_at xs w b p q)

/-- The candidate at \`(p, q)\`: \`tanh\` of its pre-activation. -/
theorem pay6_at (xs : Vec Ideal S512x4096 .bf16) (w : Vec Ideal S4096x256 .bf16) (b : Vec Ideal S1x256 .f32) (p : Fin 512) (q : Fin 256) :
    k0_pay6 (F := Ideal) xs w b (ix2 p q)
      = Ideal.tanh (Cert.Lstm.dot (fun k => xs (ix2 p k)) (fun k => w (ix2 k q)) + b (ix2 (0 : Fin 1) q)) := by
  unfold k0_pay6
  exact congrArg Ideal.tanh (pre_at xs w b p q)

/-- The output gate at \`(p, q)\`: \`σ\` of its pre-activation. -/
theorem pay7_at (xs : Vec Ideal S512x4096 .bf16) (w : Vec Ideal S4096x256 .bf16) (b : Vec Ideal S1x256 .f32) (p : Fin 512) (q : Fin 256) :
    k0_pay7 (F := Ideal) xs w b (ix2 p q)
      = Ideal.logistic (Cert.Lstm.dot (fun k => xs (ix2 p k)) (fun k => w (ix2 k q)) + b (ix2 (0 : Fin 1) q)) := by
  unfold k0_pay7
  exact congrArg Ideal.logistic (pre_at xs w b p q)

/-! ## The two written blocks at an entry -/

/-- The cell arithmetic at `(p, q)` from the three gates and the old cell state there. -/
theorem pay1_at (v30 v31 v32 : FVec Ideal S512x256 .f32) (v34 : Vec Ideal S512x256 .f32) (p : Fin 512) (q : Fin 256) :
    k0_pay1 (F := Ideal) v30 v31 v32 v34 (ix2 p q)
      = v30 (ix2 p q) * v34 (ix2 p q) + v31 (ix2 p q) * v32 (ix2 p q) := rfl

/-- The hidden arithmetic at `(p, q)`: the output gate times `tanh` of the new cell entry. -/
theorem pay2_at (v30 v31 v32 v33 : FVec Ideal S512x256 .f32) (v34 : Vec Ideal S512x256 .f32) (p : Fin 512) (q : Fin 256) :
    k0_pay2 (F := Ideal) v30 v31 v32 v33 v34 (ix2 p q)
      = v33 (ix2 p q) * Ideal.tanh (k0_pay1 (F := Ideal) v30 v31 v32 v34 (ix2 p q)) := rfl

theorem cellBlock_at (xs : Vec Ideal S512x4096 .bf16) (wf wi wg : Vec Ideal S4096x256 .bf16) (bs : Vec Ideal S4x256 .f32) (cs : Vec Ideal S512x256 .f32) (p : Fin 512) (q : Fin 256) :
    cellBlock (F := Ideal) xs wf wi wg bs cs (ix2 p q)
      = Cert.Lstm.cellOf
          (Cert.Lstm.dot (fun k => xs (ix2 p k)) (fun k => wf (ix2 k q)) + bs (ix2 (0 : Fin 4) q))
          (Cert.Lstm.dot (fun k => xs (ix2 p k)) (fun k => wi (ix2 k q)) + bs (ix2 (1 : Fin 4) q))
          (Cert.Lstm.dot (fun k => xs (ix2 p k)) (fun k => wg (ix2 k q)) + bs (ix2 (2 : Fin 4) q))
          (cs (ix2 p q)) := by
  unfold cellBlock
  rw [View.canon_unit_zero hz2]
  simp only [View.ld_unit_zero (S := S512x4096) hz2, View.ld_unit_zero (S := S4096x256) hz2, View.ld_unit_zero (S := S512x256) hz2]
  rw [pay1_at, pay4_at, pay5_at, pay6_at, ld_bias0, ld_bias1, ld_bias2]
  rfl

theorem hiddenBlock_at (xs : Vec Ideal S512x4096 .bf16) (wf wi wg wo : Vec Ideal S4096x256 .bf16) (bs : Vec Ideal S4x256 .f32) (cs : Vec Ideal S512x256 .f32) (p : Fin 512) (q : Fin 256) :
    hiddenBlock (F := Ideal) xs wf wi wg wo bs cs (ix2 p q)
      = Cert.Lstm.hiddenOf
          (Cert.Lstm.dot (fun k => xs (ix2 p k)) (fun k => wf (ix2 k q)) + bs (ix2 (0 : Fin 4) q))
          (Cert.Lstm.dot (fun k => xs (ix2 p k)) (fun k => wi (ix2 k q)) + bs (ix2 (1 : Fin 4) q))
          (Cert.Lstm.dot (fun k => xs (ix2 p k)) (fun k => wg (ix2 k q)) + bs (ix2 (2 : Fin 4) q))
          (Cert.Lstm.dot (fun k => xs (ix2 p k)) (fun k => wo (ix2 k q)) + bs (ix2 (3 : Fin 4) q))
          (cs (ix2 p q)) := by
  unfold hiddenBlock
  rw [View.canon_unit_zero hz2]
  simp only [View.ld_unit_zero (S := S512x4096) hz2, View.ld_unit_zero (S := S4096x256) hz2, View.ld_unit_zero (S := S512x256) hz2]
  rw [pay2_at, pay1_at, pay4_at, pay5_at, pay6_at, pay7_at, ld_bias0, ld_bias1, ld_bias2, ld_bias3]
  rfl

end Cert.KernelIdeal.BlockValue

end
-- ==== Proof.KernelIdealResult.lean ====
/-
  The result arrays after the run are the specification's.

  At grid point t the body is handed blocks that are, entry by entry, the launched arrays read at
  shifted coordinates: row p of the joined-rows block is the joined row of batch row `rowOf t p`,
  column q of a weight block is row `colOf t q` of that gate's weight matrix (the host transposed it),
  row g of the bias block is gate g's bias. So each of the body's four pre-activations at (p, q) is the
  specification's `pre` at (`rowOf t p`, `colOf t q`), and the two tiles the point writes back are the
  specification's arrays read through the tile. The tiles cover both arrays, so after the run each
  result array is the specification's array.
-/
import proofs.«149036_j34626026341075_2_alg».proof.Proof.KernelIdealTiles
import proofs.«149036_j34626026341075_2_alg».proof.Proof.HostPrefix
import proofs.«149036_j34626026341075_2_alg».proof.Proof.BlockValue
import proofs.«149036_j34626026341075_2_alg».proof.Proof.Spec

set_option maxRecDepth 16384

noncomputable section

namespace Cert.KernelIdeal.Result

open Cert.KernelIdeal Cert.KernelIdeal.Gen Cert.KernelIdeal.Hand Cert.KernelIdeal.Tiles
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## The four pre-activations at an entry of a tile -/

/-- The forget gate's pre-activation at entry (p, q) of point t's tile is the specification's at the shifted coordinates. -/
theorem pre_forget (t : Fin cfg0.N) (p : Fin 512) (q : Fin 256) :
    Cert.Lstm.dot (fun k => block m c 0 t (ix2 p k)) (fun k => block m c 1 t (ix2 k q)) + block m c 5 t (ix2 (0 : Fin 4) q)
      = Cert.Lstm.pre (m ((c : Thread nD τ).loc main_arg1)) (m ((c : Thread nD τ).loc main_arg0)) (m ((c : Thread nD τ).loc main_arg3)) (m ((c : Thread nD τ).loc main_arg4)) (rowOf t p) (colOf t q) := by
  unfold Cert.Lstm.pre
  exact congrArg₂ (· + ·)
    (congrArg₂ Cert.Lstm.dot (funext fun k => (read_rows m c t p k).trans (Prefix.joined_at m c (rowOf t p) k))
      (funext fun k => (read_wf m c t k q).trans (Prefix.wf_at m c k (colOf t q))))
    ((read_bias m c t 0 q).trans (Prefix.bias0_at m c (colOf t q)))

/-- The input gate's. -/
theorem pre_input (t : Fin cfg0.N) (p : Fin 512) (q : Fin 256) :
    Cert.Lstm.dot (fun k => block m c 0 t (ix2 p k)) (fun k => block m c 2 t (ix2 k q)) + block m c 5 t (ix2 (1 : Fin 4) q)
      = Cert.Lstm.pre (m ((c : Thread nD τ).loc main_arg1)) (m ((c : Thread nD τ).loc main_arg0)) (m ((c : Thread nD τ).loc main_arg5)) (m ((c : Thread nD τ).loc main_arg6)) (rowOf t p) (colOf t q) := by
  unfold Cert.Lstm.pre
  exact congrArg₂ (· + ·)
    (congrArg₂ Cert.Lstm.dot (funext fun k => (read_rows m c t p k).trans (Prefix.joined_at m c (rowOf t p) k))
      (funext fun k => (read_wi m c t k q).trans (Prefix.wi_at m c k (colOf t q))))
    ((read_bias m c t 1 q).trans (Prefix.bias1_at m c (colOf t q)))

/-- The candidate's. -/
theorem pre_cand (t : Fin cfg0.N) (p : Fin 512) (q : Fin 256) :
    Cert.Lstm.dot (fun k => block m c 0 t (ix2 p k)) (fun k => block m c 3 t (ix2 k q)) + block m c 5 t (ix2 (2 : Fin 4) q)
      = Cert.Lstm.pre (m ((c : Thread nD τ).loc main_arg1)) (m ((c : Thread nD τ).loc main_arg0)) (m ((c : Thread nD τ).loc main_arg7)) (m ((c : Thread nD τ).loc main_arg8)) (rowOf t p) (colOf t q) := by
  unfold Cert.Lstm.pre
  exact congrArg₂ (· + ·)
    (congrArg₂ Cert.Lstm.dot (funext fun k => (read_rows m c t p k).trans (Prefix.joined_at m c (rowOf t p) k))
      (funext fun k => (read_wg m c t k q).trans (Prefix.wg_at m c k (colOf t q))))
    ((read_bias m c t 2 q).trans (Prefix.bias2_at m c (colOf t q)))

/-- The output gate's. -/
theorem pre_output (t : Fin cfg0.N) (p : Fin 512) (q : Fin 256) :
    Cert.Lstm.dot (fun k => block m c 0 t (ix2 p k)) (fun k => block m c 4 t (ix2 k q)) + block m c 5 t (ix2 (3 : Fin 4) q)
      = Cert.Lstm.pre (m ((c : Thread nD τ).loc main_arg1)) (m ((c : Thread nD τ).loc main_arg0)) (m ((c : Thread nD τ).loc main_arg9)) (m ((c : Thread nD τ).loc main_arg10)) (rowOf t p) (colOf t q) := by
  unfold Cert.Lstm.pre
  exact congrArg₂ (· + ·)
    (congrArg₂ Cert.Lstm.dot (funext fun k => (read_rows m c t p k).trans (Prefix.joined_at m c (rowOf t p) k))
      (funext fun k => (read_wo m c t k q).trans (Prefix.wo_at m c k (colOf t q))))
    ((read_bias m c t 3 q).trans (Prefix.bias3_at m c (colOf t q)))

/-! ## What a point writes back -/

/-- Point `t` writes back, to the hidden states' array, the specification's hidden states read through its tile. -/
theorem flushed_hidden (t : Fin cfg0.N) :
    (dats m 0 c).flushed 7 t = ((cfg0.win 7).blk t).view.read (Elt Ideal) (Cert.Lstm.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 7).cut (grid0.coords t) ((dats m 0 c).after 7 t) = _
  rw [after7]
  funext y
  obtain ⟨p, q, rfl⟩ : ∃ (p : Fin 512) (q : Fin 256), y = ix2 p q := ⟨y 0, y 1, eq_ix2 y⟩
  show hiddenBlock (block m c 0 t) (block m c 1 t) (block m c 2 t) (block m c 3 t) (block m c 4 t) (block m c 5 t) (block m c 6 t) (ix2 p q)
    = Cert.Lstm.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 7).blk t).view.emb (ix2 p q))
  rw [emb_hidden t p q, Cert.Lstm.hiddenArr_ix2]
  refine (BlockValue.hiddenBlock_at _ _ _ _ _ _ _ p q).trans ?_
  rw [pre_forget m c t p q, pre_input m c t p q, pre_cand m c t p q, pre_output m c t p q, read_cell m c t p q]
  rfl

/-- Point `t` writes back, to the cell states' array, the specification's cell states read through its tile. -/
theorem flushed_cell (t : Fin cfg0.N) :
    (dats m 0 c).flushed 8 t = ((cfg0.win 8).blk t).view.read (Elt Ideal) (Cert.Lstm.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 8).cut (grid0.coords t) ((dats m 0 c).after 8 t) = _
  rw [after8]
  funext y
  obtain ⟨p, q, rfl⟩ : ∃ (p : Fin 512) (q : Fin 256), y = ix2 p q := ⟨y 0, y 1, eq_ix2 y⟩
  show cellBlock (block m c 0 t) (block m c 1 t) (block m c 2 t) (block m c 3 t) (block m c 5 t) (block m c 6 t) (ix2 p q)
    = Cert.Lstm.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 8).blk t).view.emb (ix2 p q))
  rw [emb_cell t p q, Cert.Lstm.cellArr_ix2]
  refine (BlockValue.cellBlock_at _ _ _ _ _ _ p q).trans ?_
  rw [pre_forget m c t p q, pre_input m c t p q, pre_cand m c t p q, read_cell m c t p q]
  rfl

/-! ## The arrays after the run -/

/-- The hidden states' array after the run is the specification's. -/
theorem final_hidden : (dats m 0 c).arrAt 7 cfg0.N = Cert.Lstm.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 7 (Cert.Lstm.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed_hidden m c t) cover_hidden

/-- The cell states' array after the run is the specification's. -/
theorem final_cell : (dats m 0 c).arrAt 8 cfg0.N = Cert.Lstm.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 8 (Cert.Lstm.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_cell m c t) cover_cell

/-- The run re-posted: both results at the specification's arrays of the launched arguments, the arguments unchanged. -/
theorem run : θ_run defs (onTc (τ := τ) (main (F := Ideal))) ⟨m, fun _ => 0, ρ⟩ fun r => ∀ c : Dev nD,
      r.2.mem ((c.tc : Thread nD τ).loc main_v15_0) = Cert.Lstm.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v15_1) = Cert.Lstm.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 7).trans (final_hidden m c), ((h c).1 8).trans (final_cell m c),
      ((h c).2 main_arg0 (Pipeline.mem_restRefs_of main_arg0 (by decide) (by decide))).trans (entry_main_arg0 m c),
      ((h c).2 main_arg1 (Pipeline.mem_restRefs_of main_arg1 (by decide) (by decide))).trans (entry_main_arg1 m c),
      ((h c).1 6).trans (((dats m 0 c).arrAt_in 6 rfl _).trans ((A_eq m c 6).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩)
    (run_main m ρ)

end Cert.KernelIdeal.Result

end
-- ==== Proof.RefValue.lean ====
/-
  The reference program computes the specification.

  The reference joins the previous hidden state and the input into one row of 4096 entries, stacks
  the four gates' weight matrices into one [8192, 4096] matrix and their biases into one vector of
  8192 entries, and takes one product: entry (b, g * 2048 + j) of it is the inner product of the
  joined row b with row j of gate g's weights, plus entry j of gate g's bias. That is gate g's
  pre-activation at (b, j). Cutting the product into its four column blocks of width 2048 gives
  the four pre-activations, and the entrywise operations that follow — 1 / (1 + e^(-t)) on the
  forget, input and output blocks, tanh on the candidate block, the products and the sum — are
  the cell update and the hidden update of the specification, read entry by entry.

  The join of two pieces reads the first piece at a column below 2048 and the second piece, 2048
  columns to the left, from there on; the stack of four pieces of 2048 rows reads piece g at a row
  in [g * 2048, (g + 1) * 2048), g * 2048 rows up. Each of the four column blocks starts at a fixed
  column (0, 2048, 4096, 6144), so the piece is fixed per block.
-/
import proofs.«149036_j34626026341075_2_alg».proof.Proof.Gen.ReferenceIdeal.Read
import proofs.«149036_j34626026341075_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The arrays' types: batch × hidden, one gate's weights, one gate's bias. -/
abbrev TA : Type := (⟨S4096x2048, .f32⟩ : BufTy).Contents (Elt Ideal)
abbrev TW : Type := (⟨S2048x4096, .f32⟩ : BufTy).Contents (Elt Ideal)
abbrev TB : Type := (⟨S2048, .f32⟩ : BufTy).Contents (Elt Ideal)

/-- The word 0x3F800000 denotes the number one. -/
theorem one_bits : Ideal.ofBits .f32 0x3F800000#32 = (1 : EReal) := by
  simp [Ideal.ofBits, Ideal.ieee, -EReal.coe_mul]; norm_num

/-- The joined row at row `b`, column `k`: the hidden state below column 2048, the input from there on. -/
theorem joined_at (x0 x1 : TA) (J : S4096x4096.Idx) (b k : Fin 4096)
    (h0 : (J 0).val = b.val) (h1 : (J 1).val = k.val) :
    val_main_v0 (F := Ideal) x0 x1 J = Cert.Lstm.joined x1 x0 b k := by
  unfold val_main_v0 Cert.Lstm.joined
  by_cases hk : k.val < 2048
  · rw [dif_pos hk]
    exact concatenate_pair_apply_left (t := S4096x4096) (s₁ := S4096x2048) (s₂ := S4096x2048) 1 x1 x0
      concatenates_S4096x2048_S4096x2048_S4096x4096_d1 J rfl (ix2 b ⟨k.val, hk⟩) (fun a => by
        match a with
        | ⟨0, _⟩ => exact h0.symm
        | ⟨1, _⟩ => exact h1.symm)
  · rw [dif_neg hk]
    exact concatenate_pair_apply_right (t := S4096x4096) (s₁ := S4096x2048) (s₂ := S4096x2048) 1 x1 x0
      concatenates_S4096x2048_S4096x2048_S4096x4096_d1 J rfl rfl (ix2 b ⟨k.val - 2048, by omega⟩)
      (fun a ha => by
        match a with
        | ⟨0, _⟩ => exact h0.symm
        | ⟨1, _⟩ => exact absurd rfl ha)
      (by show (k.val - 2048) + 2048 = (J 1).val; omega)

/-- The stacked weights at a row of piece 0: that piece's row, 0 rows up. -/
theorem weights_at0 (x3 x5 x7 x9 : TW) (J : S8192x4096.Idx) (j : Fin 2048) (k : Fin 4096)
    (h0 : (J 0).val = 0 + j.val) (h1 : (J 1).val = k.val) :
    val_main_v1 (F := Ideal) x3 x5 x7 x9 J = x3 (ix2 j k) := by
  unfold val_main_v1
  exact concatenate_apply_piece (t := S8192x4096) 0
    [⟨S2048x4096, x3⟩, ⟨S2048x4096, x5⟩, ⟨S2048x4096, x7⟩, ⟨S2048x4096, x9⟩]
    concatenates_S2048x4096_S2048x4096_S2048x4096_S2048x4096_S8192x4096_d0 J
    0 (by show 0 < 4; omega) S2048x4096 x3 rfl rfl 0 rfl (ix2 j k)
    (fun a ha => by
      match a with
      | ⟨0, _⟩ => exact absurd rfl ha
      | ⟨1, _⟩ => exact h1.symm)
    (by show 0 + j.val = (J 0).val; omega)

/-- The stacked weights at a row of piece 1: that piece's row, 2048 rows up. -/
theorem weights_at1 (x3 x5 x7 x9 : TW) (J : S8192x4096.Idx) (j : Fin 2048) (k : Fin 4096)
    (h0 : (J 0).val = 2048 + j.val) (h1 : (J 1).val = k.val) :
    val_main_v1 (F := Ideal) x3 x5 x7 x9 J = x5 (ix2 j k) := by
  unfold val_main_v1
  exact concatenate_apply_piece (t := S8192x4096) 0
    [⟨S2048x4096, x3⟩, ⟨S2048x4096, x5⟩, ⟨S2048x4096, x7⟩, ⟨S2048x4096, x9⟩]
    concatenates_S2048x4096_S2048x4096_S2048x4096_S2048x4096_S8192x4096_d0 J
    1 (by show 1 < 4; omega) S2048x4096 x5 rfl rfl 2048 rfl (ix2 j k)
    (fun a ha => by
      match a with
      | ⟨0, _⟩ => exact absurd rfl ha
      | ⟨1, _⟩ => exact h1.symm)
    (by show 2048 + j.val = (J 0).val; omega)

/-- The stacked weights at a row of piece 2: that piece's row, 4096 rows up. -/
theorem weights_at2 (x3 x5 x7 x9 : TW) (J : S8192x4096.Idx) (j : Fin 2048) (k : Fin 4096)
    (h0 : (J 0).val = 4096 + j.val) (h1 : (J 1).val = k.val) :
    val_main_v1 (F := Ideal) x3 x5 x7 x9 J = x7 (ix2 j k) := by
  unfold val_main_v1
  exact concatenate_apply_piece (t := S8192x4096) 0
    [⟨S2048x4096, x3⟩, ⟨S2048x4096, x5⟩, ⟨S2048x4096, x7⟩, ⟨S2048x4096, x9⟩]
    concatenates_S2048x4096_S2048x4096_S2048x4096_S2048x4096_S8192x4096_d0 J
    2 (by show 2 < 4; omega) S2048x4096 x7 rfl rfl 4096 rfl (ix2 j k)
    (fun a ha => by
      match a with
      | ⟨0, _⟩ => exact absurd rfl ha
      | ⟨1, _⟩ => exact h1.symm)
    (by show 4096 + j.val = (J 0).val; omega)

/-- The stacked weights at a row of piece 3: that piece's row, 6144 rows up. -/
theorem weights_at3 (x3 x5 x7 x9 : TW) (J : S8192x4096.Idx) (j : Fin 2048) (k : Fin 4096)
    (h0 : (J 0).val = 6144 + j.val) (h1 : (J 1).val = k.val) :
    val_main_v1 (F := Ideal) x3 x5 x7 x9 J = x9 (ix2 j k) := by
  unfold val_main_v1
  exact concatenate_apply_piece (t := S8192x4096) 0
    [⟨S2048x4096, x3⟩, ⟨S2048x4096, x5⟩, ⟨S2048x4096, x7⟩, ⟨S2048x4096, x9⟩]
    concatenates_S2048x4096_S2048x4096_S2048x4096_S2048x4096_S8192x4096_d0 J
    3 (by show 3 < 4; omega) S2048x4096 x9 rfl rfl 6144 rfl (ix2 j k)
    (fun a ha => by
      match a with
      | ⟨0, _⟩ => exact absurd rfl ha
      | ⟨1, _⟩ => exact h1.symm)
    (by show 6144 + j.val = (J 0).val; omega)

/-- The stacked biases at an entry of piece 0: that piece's entry, 0 places up. -/
theorem bias_at0 (x4 x6 x8 x10 : TB) (J : S8192.Idx) (j : Fin 2048)
    (h0 : (J 0).val = 0 + j.val) :
    val_main_v2 (F := Ideal) x4 x6 x8 x10 J = x4 (ix1 j) := by
  unfold val_main_v2
  exact concatenate_apply_piece (t := S8192) 0
    [⟨S2048, x4⟩, ⟨S2048, x6⟩, ⟨S2048, x8⟩, ⟨S2048, x10⟩]
    concatenates_S2048_S2048_S2048_S2048_S8192_d0 J
    0 (by show 0 < 4; omega) S2048 x4 rfl rfl 0 rfl (ix1 j)
    (fun a ha => by
      match a with
      | ⟨0, _⟩ => exact absurd rfl ha)
    (by show 0 + j.val = (J 0).val; omega)

/-- The stacked biases at an entry of piece 1: that piece's entry, 2048 places up. -/
theorem bias_at1 (x4 x6 x8 x10 : TB) (J : S8192.Idx) (j : Fin 2048)
    (h0 : (J 0).val = 2048 + j.val) :
    val_main_v2 (F := Ideal) x4 x6 x8 x10 J = x6 (ix1 j) := by
  unfold val_main_v2
  exact concatenate_apply_piece (t := S8192) 0
    [⟨S2048, x4⟩, ⟨S2048, x6⟩, ⟨S2048, x8⟩, ⟨S2048, x10⟩]
    concatenates_S2048_S2048_S2048_S2048_S8192_d0 J
    1 (by show 1 < 4; omega) S2048 x6 rfl rfl 2048 rfl (ix1 j)
    (fun a ha => by
      match a with
      | ⟨0, _⟩ => exact absurd rfl ha)
    (by show 2048 + j.val = (J 0).val; omega)

/-- The stacked biases at an entry of piece 2: that piece's entry, 4096 places up. -/
theorem bias_at2 (x4 x6 x8 x10 : TB) (J : S8192.Idx) (j : Fin 2048)
    (h0 : (J 0).val = 4096 + j.val) :
    val_main_v2 (F := Ideal) x4 x6 x8 x10 J = x8 (ix1 j) := by
  unfold val_main_v2
  exact concatenate_apply_piece (t := S8192) 0
    [⟨S2048, x4⟩, ⟨S2048, x6⟩, ⟨S2048, x8⟩, ⟨S2048, x10⟩]
    concatenates_S2048_S2048_S2048_S2048_S8192_d0 J
    2 (by show 2 < 4; omega) S2048 x8 rfl rfl 4096 rfl (ix1 j)
    (fun a ha => by
      match a with
      | ⟨0, _⟩ => exact absurd rfl ha)
    (by show 4096 + j.val = (J 0).val; omega)

/-- The stacked biases at an entry of piece 3: that piece's entry, 6144 places up. -/
theorem bias_at3 (x4 x6 x8 x10 : TB) (J : S8192.Idx) (j : Fin 2048)
    (h0 : (J 0).val = 6144 + j.val) :
    val_main_v2 (F := Ideal) x4 x6 x8 x10 J = x10 (ix1 j) := by
  unfold val_main_v2
  exact concatenate_apply_piece (t := S8192) 0
    [⟨S2048, x4⟩, ⟨S2048, x6⟩, ⟨S2048, x8⟩, ⟨S2048, x10⟩]
    concatenates_S2048_S2048_S2048_S2048_S8192_d0 J
    3 (by show 3 < 4; omega) S2048 x10 rfl rfl 6144 rfl (ix1 j)
    (fun a ha => by
      match a with
      | ⟨0, _⟩ => exact absurd rfl ha)
    (by show 6144 + j.val = (J 0).val; omega)

/-- One column of the product plus the broadcast bias is a gate's pre-activation: if the stacked weights
    read `W` and the stacked biases read `bias` from row `off` on, then entry `(b, off + j)` of the
    biased product is `pre h x W bias b j`. -/
theorem pre_at (x0 x1 : TA) (x3 : TW) (x4 : TB) (x5 : TW) (x6 : TB) (x7 : TW) (x8 : TB) (x9 : TW) (x10 : TB)
    (W : TW) (bias : TB) (off : Nat)
    (hW : ∀ (J : S8192x4096.Idx) (j : Fin 2048) (k : Fin 4096), (J 0).val = off + j.val → (J 1).val = k.val →
      val_main_v1 (F := Ideal) x3 x5 x7 x9 J = W (ix2 j k))
    (hB : ∀ (J : S8192.Idx) (j : Fin 2048), (J 0).val = off + j.val →
      val_main_v2 (F := Ideal) x4 x6 x8 x10 J = bias (ix1 j))
    (I : S4096x8192.Idx) (b : Fin 4096) (j : Fin 2048) (h0 : (I 0).val = b.val) (h1 : (I 1).val = off + j.val) :
    val_main_v7 (F := Ideal) x0 x1 x3 x4 x5 x6 x7 x8 x9 x10 I = Cert.Lstm.pre x1 x0 W bias b j := by
  rw [val_main_v7_apply, val_main_v4_apply, val_main_v6_apply, val_main_v5_apply, hB _ j h1, Ideal.addf_def]
  unfold Cert.Lstm.pre Cert.Lstm.dot
  refine congrArg (fun s => s + bias (ix1 j)) (Finset.sum_congr rfl fun k _ => ?_)
  rw [joined_at x0 x1 _ b k h0 rfl, val_main_v3_apply, hW _ j k h1 rfl]

/-- The forget gate at `(b, j)`: `1 / (1 + e^(-t))` of the first column block. -/
theorem forget_at (x0 x1 : TA) (x3 : TW) (x4 : TB) (x5 : TW) (x6 : TB) (x7 : TW) (x8 : TB) (x9 : TW) (x10 : TB) (b : Fin 4096) (j : Fin 2048) :
    val_main_v17 (F := Ideal) x0 x1 x3 x4 x5 x6 x7 x8 x9 x10 (ix2 b j) = Ideal.logistic (Cert.Lstm.pre x1 x0 x3 x4 b j) := by
  rw [val_main_v17_apply, val_main_v16_apply, val_main_cst_0_apply, val_main_v15_apply, val_main_v14_apply, val_main_cst_apply,
    val_main_v13_apply, val_main_v12_apply, val_main_v8_apply,
    pre_at x0 x1 x3 x4 x5 x6 x7 x8 x9 x10 x3 x4 0 (weights_at0 x3 x5 x7 x9) (bias_at0 x4 x6 x8 x10) _ b j rfl (by show j.val = 0 + j.val; omega)]
  simp only [Ideal.ofBits_def, one_bits, Ideal.hostDivf_def, Ideal.addf_def, Ideal.hostUnary_exp_def,
    Ideal.hostNegf_def, Ideal.negf_def]
  rfl

/-- The input gate at `(b, j)`: `1 / (1 + e^(-t))` of the second column block. -/
theorem input_at (x0 x1 : TA) (x3 : TW) (x4 : TB) (x5 : TW) (x6 : TB) (x7 : TW) (x8 : TB) (x9 : TW) (x10 : TB) (b : Fin 4096) (j : Fin 2048) :
    val_main_v23 (F := Ideal) x0 x1 x3 x4 x5 x6 x7 x8 x9 x10 (ix2 b j) = Ideal.logistic (Cert.Lstm.pre x1 x0 x5 x6 b j) := by
  rw [val_main_v23_apply, val_main_v22_apply, val_main_cst_2_apply, val_main_v21_apply, val_main_v20_apply, val_main_cst_1_apply,
    val_main_v19_apply, val_main_v18_apply, val_main_v9_apply,
    pre_at x0 x1 x3 x4 x5 x6 x7 x8 x9 x10 x5 x6 2048 (weights_at1 x3 x5 x7 x9) (bias_at1 x4 x6 x8 x10) _ b j rfl rfl]
  simp only [Ideal.ofBits_def, one_bits, Ideal.hostDivf_def, Ideal.addf_def, Ideal.hostUnary_exp_def,
    Ideal.hostNegf_def, Ideal.negf_def]
  rfl

/-- The output gate at `(b, j)`: `1 / (1 + e^(-t))` of the fourth column block. -/
theorem output_at (x0 x1 : TA) (x3 : TW) (x4 : TB) (x5 : TW) (x6 : TB) (x7 : TW) (x8 : TB) (x9 : TW) (x10 : TB) (b : Fin 4096) (j : Fin 2048) :
    val_main_v30 (F := Ideal) x0 x1 x3 x4 x5 x6 x7 x8 x9 x10 (ix2 b j) = Ideal.logistic (Cert.Lstm.pre x1 x0 x9 x10 b j) := by
  rw [val_main_v30_apply, val_main_v29_apply, val_main_cst_4_apply, val_main_v28_apply, val_main_v27_apply, val_main_cst_3_apply,
    val_main_v26_apply, val_main_v25_apply, val_main_v11_apply,
    pre_at x0 x1 x3 x4 x5 x6 x7 x8 x9 x10 x9 x10 6144 (weights_at3 x3 x5 x7 x9) (bias_at3 x4 x6 x8 x10) _ b j rfl rfl]
  simp only [Ideal.ofBits_def, one_bits, Ideal.hostDivf_def, Ideal.addf_def, Ideal.hostUnary_exp_def,
    Ideal.hostNegf_def, Ideal.negf_def]
  rfl

/-- The candidate at `(b, j)`: `tanh` of the third column block. -/
theorem cand_at (x0 x1 : TA) (x3 : TW) (x4 : TB) (x5 : TW) (x6 : TB) (x7 : TW) (x8 : TB) (x9 : TW) (x10 : TB) (b : Fin 4096) (j : Fin 2048) :
    val_main_v24 (F := Ideal) x0 x1 x3 x4 x5 x6 x7 x8 x9 x10 (ix2 b j) = Ideal.tanh (Cert.Lstm.pre x1 x0 x7 x8 b j) := by
  rw [val_main_v24_apply, val_main_v10_apply,
    pre_at x0 x1 x3 x4 x5 x6 x7 x8 x9 x10 x7 x8 4096 (weights_at2 x3 x5 x7 x9) (bias_at2 x4 x6 x8 x10) _ b j rfl rfl]
  simp only [Ideal.hostUnary_tanh_def]

/-- The reference's new cell state at `(b, j)` is the specification's. -/
theorem cell_at (x0 x1 x2 : TA) (x3 : TW) (x4 : TB) (x5 : TW) (x6 : TB) (x7 : TW) (x8 : TB) (x9 : TW) (x10 : TB)
    (b : Fin 4096) (j : Fin 2048) :
    val_main_v33 (F := Ideal) x0 x1 x2 x3 x4 x5 x6 x7 x8 x9 x10 (ix2 b j)
      = Cert.Lstm.cellAt x0 x1 x2 x3 x4 x5 x6 x7 x8 b j := by
  rw [val_main_v33_apply, val_main_v31_apply, val_main_v32_apply, forget_at, input_at, cand_at]
  simp only [Ideal.addf_def, Ideal.mulf_def]
  rfl

/-- The reference's new cell state is the specification's, as whole arrays. -/
theorem cell_eq (x0 x1 x2 : (⟨S4096x2048, .f32⟩ : BufTy).Contents (Elt Ideal)) (x3 : (⟨S2048x4096, .f32⟩ : BufTy).Contents (Elt Ideal)) (x4 : (⟨S2048, .f32⟩ : BufTy).Contents (Elt Ideal)) (x5 : (⟨S2048x4096, .f32⟩ : BufTy).Contents (Elt Ideal)) (x6 : (⟨S2048, .f32⟩ : BufTy).Contents (Elt Ideal)) (x7 : (⟨S2048x4096, .f32⟩ : BufTy).Contents (Elt Ideal)) (x8 : (⟨S2048, .f32⟩ : BufTy).Contents (Elt Ideal)) (x9 : (⟨S2048x4096, .f32⟩ : BufTy).Contents (Elt Ideal)) (x10 : (⟨S2048, .f32⟩ : BufTy).Contents (Elt Ideal)) :
    Cert.ReferenceIdeal.Read.val_main_v33 (F := Ideal) x0 x1 x2 x3 x4 x5 x6 x7 x8 x9 x10 = Cert.Lstm.cellArr x0 x1 x2 x3 x4 x5 x6 x7 x8 := by
  funext i
  obtain ⟨b, j, rfl⟩ : ∃ (b : Fin 4096) (j : Fin 2048), i = ix2 b j := ⟨i 0, i 1, eq_ix2 i⟩
  rw [Cert.Lstm.cellArr_ix2]
  exact cell_at x0 x1 x2 x3 x4 x5 x6 x7 x8 x9 x10 b j

/-- The reference's new hidden state is the specification's, as whole arrays. -/
theorem hidden_eq (x0 x1 x2 : (⟨S4096x2048, .f32⟩ : BufTy).Contents (Elt Ideal)) (x3 : (⟨S2048x4096, .f32⟩ : BufTy).Contents (Elt Ideal)) (x4 : (⟨S2048, .f32⟩ : BufTy).Contents (Elt Ideal)) (x5 : (⟨S2048x4096, .f32⟩ : BufTy).Contents (Elt Ideal)) (x6 : (⟨S2048, .f32⟩ : BufTy).Contents (Elt Ideal)) (x7 : (⟨S2048x4096, .f32⟩ : BufTy).Contents (Elt Ideal)) (x8 : (⟨S2048, .f32⟩ : BufTy).Contents (Elt Ideal)) (x9 : (⟨S2048x4096, .f32⟩ : BufTy).Contents (Elt Ideal)) (x10 : (⟨S2048, .f32⟩ : BufTy).Contents (Elt Ideal)) :
    Cert.ReferenceIdeal.Read.val_main_v35 (F := Ideal) x0 x1 x2 x3 x4 x5 x6 x7 x8 x9 x10 = Cert.Lstm.hiddenArr x0 x1 x2 x3 x4 x5 x6 x7 x8 x9 x10 := by
  funext i
  obtain ⟨b, j, rfl⟩ : ∃ (b : Fin 4096) (j : Fin 2048), i = ix2 b j := ⟨i 0, i 1, eq_ix2 i⟩
  rw [Cert.Lstm.hiddenArr_ix2, val_main_v35_apply, val_main_v34_apply, output_at, cell_at]
  simp only [Ideal.mulf_def, Ideal.hostUnary_tanh_def]
  rfl

end Cert.ReferenceIdeal.RefValue

end
-- ==== Proof.lean ====
/-
  An LSTM cell step as a pipelined kernel equals its reference, over the extended reals.

  Both programs compute, for batch row b and hidden unit j, the four pre-activations
      pre_g b j = (∑ k, [h, x] b k * W_g j k) + bias_g j      (g = forget, input, candidate, output)
  and from them c' = σ(pre_f)·c + σ(pre_i)·tanh(pre_g) and h' = σ(pre_o)·tanh(c'), σ t = 1/(1 + e^(-t)).
  The kernel joins h and x, transposes each weight matrix and stacks the biases on the host, then runs
  an 8 × 8 grid of tiles, each a [512, 4096]·[4096, 256] product per gate into a zero accumulator,
  plus its bias row, through σ or tanh; the changes of float format on the way into the products are
  the identity over the extended reals. The reference multiplies the joined rows by the four weight
  matrices stacked into one [8192, 4096] matrix, adds the stacked bias, cuts the [4096, 8192] result in
  four and spells σ as 1/(1 + exp(-t)), which is σ's definition. Each sum runs over the same 4096
  positions in the same order with the same factors, so the two sides are one function of the
  arguments, entry by entry (the specification, `Cert.Lstm.hiddenArr` and `Cert.Lstm.cellArr`); no law
  that could fail at an infinite entry is used, and the precondition is never opened.

  The frames: each kernel program's run is the pipeline library's launch theorem applied to the
  body's triple at every grid point; the reference's is its generated run with the results dropped.
  The idealization rewrote no operation, so there is nothing to preserve.
-/
import proofs.«149036_j34626026341075_2_alg».proof.Defs
import proofs.«149036_j34626026341075_2_alg».proof.Proof.Gen.Kernel
import proofs.«149036_j34626026341075_2_alg».proof.Proof.Gen.KernelIdeal
import proofs.«149036_j34626026341075_2_alg».proof.Proof.Gen.ReferenceIdeal
import proofs.«149036_j34626026341075_2_alg».proof.Proof.Gen.Pre_finite_inputs
import proofs.«149036_j34626026341075_2_alg».proof.Proof.Gen.ReferenceIdeal.Run
import proofs.«149036_j34626026341075_2_alg».proof.Proof.Gen.ReferenceIdeal.Read
import proofs.«149036_j34626026341075_2_alg».proof.Proof.KernelRun
import proofs.«149036_j34626026341075_2_alg».proof.Proof.KernelIdealResult
import proofs.«149036_j34626026341075_2_alg».proof.Proof.RefValue

noncomputable section

namespace Cert.Proof

open Idealize.ShloMosaic Idealize.ShloMosaic.TcCoe Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end with the specification's two arrays of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Lstm.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Lstm.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Result.run m ρ, ?_⟩
  refine (θ_run Cert.ReferenceIdeal.defs _ _).mono (fun _ h c => ⟨?_, ?_, (h c).2.2⟩) (Cert.ReferenceIdeal.Value.run (F := Ideal) m' ρ')
  · refine ((h c).1.trans (Cert.ReferenceIdeal.Read.val_main_v35_eq m' c)).trans ?_
    rw [Cert.ReferenceIdeal.RefValue.hidden_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]
  · refine ((h c).2.1.trans (Cert.ReferenceIdeal.Read.val_main_v33_eq _ _ _ _ _ _ _ _ _ _ _)).trans ?_
    rw [Cert.ReferenceIdeal.RefValue.cell_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
